-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩
abbrev S4x8x2048 : Shape := ⟨3, ![4, 8, 2048]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  reducesTo_S4x8x2048x64_S4x8x2048_d3 : S4x8x2048x64.ReducesTo [3] S4x8x2048
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn_part1 {F : FTy → Type} [FloatOps F] (main_arg1 : FVec F S4x8x2048x64 .f32) (main_v13 : IVec S_ 1) (main_v15 : FVec F S4x8x2048 .f32) (main_cst_5 : FVec F S_ .f32) : IVec S_ 1 :=
  let main_v16 : FVec F S4x8x2048 .f32 := broadcastInDim S4x8x2048 ![] bcast_S_S4x8x2048 main_cst_5
  let main_v17 : IVec S4x8x2048 1 := cmpf .ogt main_v15 main_v16
  let main_c_6 : IVec S_ 1 := constantI S_ 1 1#1
  let main_v18 : IVec S_ 1 := (fun x v => Host.reduce IntOp.andi x v reducesTo_S4x8x2048_S_d0_1_2 h_S_) main_v17 main_c_6
  let main_v19 : IVec S_ 1 := andi main_v13 main_v18
  let main_v20 : FVec F S4x8x2048x64 .f32 := mulf main_arg1 main_arg1
  let main_cst_7 : FVec F S_ .f32 := constant S_ .f32 0x00000000#32
  let main_v21 : FVec F S4x8x2048 .f32 := (fun x v => Host.reduceAdd x v reducesTo_S4x8x2048x64_S4x8x2048_d3 h_S_) main_v20 main_cst_7
  let main_cst_8 : FVec F S_ .f32 := constant S_ .f32 0x00000000#32
  let main_v22 : FVec F S4x8x2048 .f32 := broadcastInDim S4x8x2048 ![] bcast_S_S4x8x2048 main_cst_8
  let main_v23 : IVec S4x8x2048 1 := cmpf .ogt main_v21 main_v22
  let main_c_9 : IVec S_ 1 := constantI S_ 1 1#1
  let main_v24 : IVec S_ 1 := (fun x v => Host.reduce IntOp.andi x v reducesTo_S4x8x2048_S_d0_1_2 h_S_) main_v23 main_c_9
  let main_v25 : IVec S_ 1 := andi main_v19 main_v24
  main_v25

def fn {F : FTy → Type} [FloatOps F] (main_arg0 : FVec F S4x8x2048x64 .f32) (main_arg1 : FVec F S4x8x2048x64 .f32) (main_arg2 : FVec F S4x8x2048x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x8x2048x64 .f32 := mulf main_arg0 main_arg0
  let main_cst_4 : FVec F S_ .f32 := constant S_ .f32 0x00000000#32
  let main_v15 : FVec F S4x8x2048 .f32 := (fun x v => Host.reduceAdd x v reducesTo_S4x8x2048x64_S4x8x2048_d3 h_S_) main_v14 main_cst_4
  let main_cst_5 : FVec F S_ .f32 := constant S_ .f32 0x00000000#32
  fn_part1 (F := F) main_arg1 main_v13 main_v15 main_cst_5
-- ==== Kernel.lean ====
abbrev S4x8x2048x64 : Shape := ⟨4, ![4, 8, 2048, 64]⟩
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S64x2048 : Shape := ⟨2, ![64, 2048]⟩
abbrev S256x2048 : Shape := ⟨2, ![256, 2048]⟩
abbrev S1x2048 : Shape := ⟨2, ![1, 2048]⟩
abbrev S4x8x2048x2048 : Shape := ⟨4, ![4, 8, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S4x8x2048x64, .f32⟩
  | .hbm, ⟨9, _⟩ => ⟨S4x8x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8x2048x64_S32x2048x64 : S4x8x2048x64.ShapeCasts S32x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x64_S256 : S256x64.Reduces [1] S256
  shapeCasts_S256_S256x1 : S256.ShapeCasts S256x1
  reduces_S2048x64_S2048 : S2048x64.Reduces [1] S2048
  shapeCasts_S2048_S2048x1 : S2048.ShapeCasts S2048x1
  broadcasts_S256x1_S256x64 : S256x1.Broadcasts S256x64
  bitsLt_bf16_f32 : FTy.bits .bf16 < FTy.bits .f32
  broadcasts_S2048x1_S2048x64 : S2048x1.Broadcasts S2048x64
  transposes_S2048x64_p1_0_S64x2048 : S2048x64.Transposes [1, 0] S64x2048
  transposes_S2048x1_p1_0_S1x2048 : S2048x1.Transposes [1, 0] S1x2048
  broadcasts_S256x1_S256x2048 : S256x1.Broadcasts S256x2048
  broadcasts_S1x2048_S256x2048 : S1x2048.Broadcasts S256x2048
  reduces_S256x2048_S256 : S256x2048.Reduces [1] S256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S32x2048x64_S4x8x2048x64 : S32x2048x64.ShapeCasts S4x8x2048x64
  shapeCasts_S32x2048x2048_S4x8x2048x2048 : S32x2048x2048.ShapeCasts S4x8x2048x2048
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S32x2048x64.size a
  hwx0_3 : ∀ i : grid0.Coords, EltTy.bits .f32 = 32 ∨ (Rect.block (s := S32x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S32x2048x2048.size a
  hwx0_4 : ∀ i : grid0.Coords, EltTy.bits .f32 = 32 ∨ (Rect.block (s := S32x2048x2048) S1x256x2048.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048 : Shape := ⟨3, ![4, 8, 2048]⟩
abbrev S4x8x2048x1 : Shape := ⟨4, ![4, 8, 2048, 1]⟩
abbrev S4x8x2048x2048 : Shape := ⟨4, ![4, 8, 2048, 2048]⟩
abbrev S4x8x1x2048 : Shape := ⟨4, ![4, 8, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8x2048x64, .f32⟩
  | .hbm, ⟨8, _⟩ => ⟨S_, .f32⟩
  | .hbm, ⟨9, _⟩ => ⟨S4x8x2048, .f32⟩
  | .hbm, ⟨10, _⟩ => ⟨S4x8x2048x1, .f32⟩
  | .hbm, ⟨11, _⟩ => ⟨S4x8x2048x1, .f32⟩
  | .hbm, ⟨12, _⟩ => ⟨S4x8x2048x64, .f32⟩
  | .hbm, ⟨13, _⟩ => ⟨S4x8x2048x64, .f32⟩
  | .hbm, ⟨14, _⟩ => ⟨S4x8x2048x64, .f32⟩
  | .hbm, ⟨15, _⟩ => ⟨S_, .f32⟩
  | .hbm, ⟨16, _⟩ => ⟨S4x8x2048, .f32⟩
  | .hbm, ⟨17, _⟩ => ⟨S4x8x2048x1, .f32⟩
  | .hbm, ⟨18, _⟩ => ⟨S4x8x2048x1, .f32⟩
  | .hbm, ⟨19, _⟩ => ⟨S4x8x2048x64, .f32⟩
  | .hbm, ⟨20, _⟩ => ⟨S4x8x2048x64, .f32⟩
  | .hbm, ⟨21, _⟩ => ⟨S4x8x2048x2048, .f32⟩
  | .hbm, ⟨22, _⟩ => ⟨S_, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S_, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S4x8x2048x64, .f32⟩
  | .hbm, ⟨43, _⟩ => ⟨S_, .f32⟩
  | .hbm, ⟨44, _⟩ => ⟨S4x8x2048, .f32⟩
  | .hbm, ⟨45, _⟩ => ⟨S4x8x2048x1, .f32⟩
  | .hbm, ⟨46, _⟩ => ⟨S4x8x2048x64, .f32⟩
  | .hbm, ⟨47, _⟩ => ⟨S_, .f32⟩
  | .hbm, ⟨48, _⟩ => ⟨S4x8x2048, .f32⟩
  | .hbm, ⟨49, _⟩ => ⟨S4x8x2048x1, .f32⟩
  | .hbm, ⟨50, _⟩ => ⟨S4x8x1x2048, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S_, .f32⟩
  | .hbm, ⟨55, _⟩ => ⟨S_, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S_, .f32⟩
  | .hbm, ⟨60, _⟩ => ⟨S4x8x2048, .f32⟩
  | .hbm, ⟨61, _⟩ => ⟨S_, .f32⟩
  | .hbm, ⟨62, _⟩ => ⟨S4x8x2048, .f32⟩
  | .hbm, ⟨63, _⟩ => ⟨S4x8x2048, .f32⟩
  | .hbm, ⟨64, _⟩ => ⟨S4x8x2048x1, .f32⟩
  | .hbm, ⟨65, _⟩ => ⟨S4x8x2048x2048, .f32⟩
  | .hbm, ⟨66, _⟩ => ⟨S4x8x2048x2048, .f32⟩
  | .hbm, ⟨67, _⟩ => ⟨S4x8x2048x2048, .f32⟩
  | .hbm, ⟨68, _⟩ => ⟨S_, .f32⟩
  | .hbm, ⟨69, _⟩ => ⟨S4x8x2048, .f32⟩
  | .hbm, ⟨70, _⟩ => ⟨S4x8x2048x1, .f32⟩
  | .hbm, ⟨71, _⟩ => ⟨S4x8x2048x2048, .f32⟩
  | .hbm, ⟨72, _⟩ => ⟨S4x8x2048x2048, .f32⟩
  | .hbm, ⟨73, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  reducesTo_S4x8x2048x64_S4x8x2048_d3 : S4x8x2048x64.ReducesTo [3] S4x8x2048
  h_S_ : 0 < S_.numel
  bcast_S4x8x2048_S4x8x2048x1_0_1_2 : S4x8x2048.BroadcastsInDim S4x8x2048x1 (![0, 1, 2] : Fin 3 → Fin S4x8x2048x1.rank)
  bcast_S4x8x2048x1_S4x8x2048x64_0_1_2_3 : S4x8x2048x1.BroadcastsInDim S4x8x2048x64 (![0, 1, 2, 3] : Fin 4 → Fin S4x8x2048x64.rank)
  bcast_S_S4x8x2048x2048 : S_.BroadcastsInDim S4x8x2048x2048 (![] : Fin 0 → Fin S4x8x2048x2048.rank)
  transposes_S4x8x2048x1_S4x8x1x2048_0_1_3_2 : S4x8x2048x1.Transposes [0, 1, 3, 2] S4x8x1x2048
  bcast_S4x8x2048x1_S4x8x2048x2048_0_1_2_3 : S4x8x2048x1.BroadcastsInDim S4x8x2048x2048 (![0, 1, 2, 3] : Fin 4 → Fin S4x8x2048x2048.rank)
  bcast_S4x8x1x2048_S4x8x2048x2048_0_1_2_3 : S4x8x1x2048.BroadcastsInDim S4x8x2048x2048 (![0, 1, 2, 3] : Fin 4 → Fin S4x8x2048x2048.rank)
  reducesTo_S4x8x2048x2048_S4x8x2048_d3 : S4x8x2048x2048.ReducesTo [3] S4x8x2048
  bcast_S_S4x8x2048 : S_.BroadcastsInDim S4x8x2048 (![] : Fin 0 → Fin S4x8x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Spec.lean ====
/-
  Periodic-kernel attention, entry by entry, on the extended reals.

  For a query row `q` and a key row `k` (64 entries each) let `sq x = ∑ x_d²`, and let `cosSim q k` be the inner
  product of the two rows after each is divided by its length `√(sq x)`. Put `gap = (2 + ε) − 2·cosSim`.
  The score of the pair is a periodic term plus a magnitude term. It is written here in the two forms that occur:
    • `scoreK`: `(cos (2π̃ · √(max gap 0)) − 1) · (1/8) + (sq q + sq k) · (1/16)`,
    • `scoreR`: `(−2) · sin² (π̃ · √gap / 1) · (1/√64) + (sq q + sq k) · ((1/2) · (1/√64))`,
  where `π̃` is the single-precision word nearest π and `2π̃` its double. They agree on rows of real numbers that are
  not all zero: then `cosSim ≤ 1` (Cauchy–Schwarz), so `gap > 0` and the `max` is inactive, and
  `cos 2x − 1 = −2 sin² x`.
  A row of scores `S` (2048 entries) is turned into weights by `soft S s = exp (S s − max S) / ∑ exp (S s' − max S)`.
-/
import Idealize.ShloMosaic.PureOps.Ideal
import Idealize.ShloMosaic.PureOps.Ideal.Laws

noncomputable section

open scoped BigOperators

namespace Cert.PeriodicAttn

open Idealize.ShloMosaic

/-- The squared length of a row. -/
def sq (x : Fin 64 → EReal) : EReal := ∑ d : Fin 64, x d * x d

/-- The inner product of two rows, each entry divided by its row's length first. -/
def cosSim (q k : Fin 64 → EReal) : EReal :=
  ∑ d : Fin 64, Ideal.div (q d) (Ideal.sqrt (sq q)) * Ideal.div (k d) (Ideal.sqrt (sq k))

/-- `(2 + ε) − 2 · cosSim`, the argument of the square root. -/
def gap (q k : Fin 64 → EReal) : EReal :=
  Ideal.ofBits .f32 0x4000002A#32 - Ideal.ofBits .f32 0x40000000#32 * cosSim q k

/-- The score in its cosine form, with the argument of the root clamped at zero. -/
def scoreK (q k : Fin 64 → EReal) : EReal :=
  (Ideal.cos (Ideal.ofBits .f32 0x40C90FDB#32 * Ideal.sqrt (max (gap q k) (Ideal.ofBits .f32 0x00000000#32)))
      - Ideal.ofBits .f32 0x3F800000#32) * Ideal.ofBits .f32 0x3E000000#32
    + (sq q + sq k) * Ideal.ofBits .f32 0x3D800000#32

/-- `1 / √64`, computed. -/
def invRoot : EReal := Ideal.div (Ideal.ofBits .f32 0x3F800000#32) (Ideal.sqrt (Ideal.ofBits .f32 0x42800000#32))

/-- The sine whose square the second form uses: `sin (π̃ · √gap / 1)`. -/
def halfSin (q k : Fin 64 → EReal) : EReal :=
  Ideal.sin (Ideal.div (Ideal.ofBits .f32 0x40490FDB#32 * Ideal.sqrt (gap q k)) (Ideal.ofBits .f32 0x3F800000#32))

/-- The score in its squared-sine form, no clamp. -/
def scoreR (q k : Fin 64 → EReal) : EReal :=
  Ideal.ofBits .f32 0xC0000000#32 * (halfSin q k * halfSin q k) * invRoot
    + (sq q + sq k) * (Ideal.ofBits .f32 0x3F000000#32 * invRoot)

/-- The largest entry of a row of scores (from −∞). -/
def rowMax (S : Fin 2048 → EReal) : EReal :=
  (Finset.univ : Finset (Fin 2048)).fold max (Ideal.ofBits .f32 0xFF800000#32) S

/-- One weight of the normalised exponentials of a row of scores. -/
def soft (S : Fin 2048 → EReal) (s : Fin 2048) : EReal :=
  Ideal.div (Ideal.exp (S s - rowMax S)) (∑ s' : Fin 2048, Ideal.exp (S s' - rowMax S))

/-- The weighted sum of the value rows: one entry of the output. -/
def mix (w : Fin 2048 → EReal) (v : Fin 2048 → EReal) : EReal := ∑ s : Fin 2048, w s * v s

end Cert.PeriodicAttn

end
-- ==== Proof.KernelPay.lean ====
/-
  What the kernel's body computes, entry by entry, at the ideal values.

  At a grid point the body holds a block of 256 query rows `x0`, all 2048 key rows `x1` and all 2048 value rows `x2`
  of one (batch, head) pair. It forms the squared lengths of the rows, the cosine similarities of the normalised
  rows, the score of every (query row, key row) pair in its cosine form, the weights of each query row (the normalised
  exponentials of its scores) and the weighted sums of the value rows. Each of these is read here at one entry,
  in terms of the row functions of the specification.
-/
import proofs.«114575_j82592221102308_2_alg».proof.Proof.Gen.KernelIdeal.Skeleton
import proofs.«114575_j82592221102308_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelPay

open Idealize.ShloMosaic Idealize.ShloMosaic.ValueIdx Cert.KernelIdeal Cert.KernelIdeal.Gen Cert.PeriodicAttn

/-! ## Column forms of the layout operations -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loaded blocks as matrices -/

theorem pay4_apply (x0 : Vec Ideal S1x256x64 .f32) (r : Fin 256) (d : Fin 64) :
    k0_pay4 (F := Ideal) x0 (ix2 r d) = x0 (ix3 (0 : Fin 1) r d) :=
  shapeCast_1ab_ab_apply x0 _ r d

theorem pay5_apply (x1 : Vec Ideal S1x2048x64 .f32) (s : Fin 2048) (d : Fin 64) :
    k0_pay5 (F := Ideal) x1 (ix2 s d) = x1 (ix3 (0 : Fin 1) s d) :=
  shapeCast_1ab_ab_apply x1 _ s d

theorem pay6_apply (x2 : Vec Ideal S1x2048x64 .f32) (s : Fin 2048) (d : Fin 64) :
    k0_pay6 (F := Ideal) x2 (ix2 s d) = x2 (ix3 (0 : Fin 1) s d) :=
  shapeCast_1ab_ab_apply x2 _ s d

/-! ## Squared lengths of the rows -/

/-- The squared length of query row `r` of the block. -/
theorem pay7_apply (x0 : Vec Ideal S1x256x64 .f32) (r : Fin 256) (u : Fin 1) :
    k0_pay7 (F := Ideal) x0 (ix2 r u) = PeriodicAttn.sq (fun d => x0 (ix3 (0 : Fin 1) r d)) := by
  unfold k0_pay7
  refine (shapeCast_a_a1_apply _ _ r u).trans ?_
  refine (Ideal.multiReduction_add_single _ _ _ _ _ (ix1 r)).trans ?_
  show ∑ d : Fin 64, _ = ∑ d : Fin 64, _
  refine Finset.sum_congr rfl fun d _ => ?_
  have e : Facts₀.reduces_S256x64_S256.lift (ix1 r) d = ix2 r d :=
    funext fun a => Fin.ext (by match a with | ⟨0, _⟩ => rfl | ⟨1, _⟩ => rfl)
  refine (congrArg (mulf (k0_pay4 (F := Ideal) x0) (k0_pay4 (F := Ideal) x0)) e).trans ?_
  exact congrArg₂ (· * ·) (pay4_apply x0 r d) (pay4_apply x0 r d)

/-- The squared length of key row `s`. -/
theorem pay8_apply (x1 : Vec Ideal S1x2048x64 .f32) (s : Fin 2048) (u : Fin 1) :
    k0_pay8 (F := Ideal) x1 (ix2 s u) = PeriodicAttn.sq (fun d => x1 (ix3 (0 : Fin 1) s d)) := by
  unfold k0_pay8
  refine (shapeCast_a_a1_apply _ _ s u).trans ?_
  refine (Ideal.multiReduction_add_single _ _ _ _ _ (ix1 s)).trans ?_
  show ∑ d : Fin 64, _ = ∑ d : Fin 64, _
  refine Finset.sum_congr rfl fun d _ => ?_
  have e : Facts₀.reduces_S2048x64_S2048.lift (ix1 s) d = ix2 s d :=
    funext fun a => Fin.ext (by match a with | ⟨0, _⟩ => rfl | ⟨1, _⟩ => rfl)
  refine (congrArg (mulf (k0_pay5 (F := Ideal) x1) (k0_pay5 (F := Ideal) x1)) e).trans ?_
  exact congrArg₂ (· * ·) (pay5_apply x1 s d) (pay5_apply x1 s d)

/-! ## The two matrix products at an entry

Both products have plain dimension numbers (rows × inner times inner × columns) and a zero accumulator, so an entry is
the sum over the inner coordinate of the products of the operands' entries. -/

abbrev D1 := dot_S256x64_S64x2048_S256x2048_1_0_0_1_n_n
abbrev D2 := dot_S256x2048_S2048x64_S256x64_1_0_0_1_n_n

theorem D1_lhs0 (i : S256x2048.Idx) (q : D1.contr.Idx) : (D1.lhsIdx i q 0).val = (i 0).val := by
  unfold DotDims.lhsIdx
  rw [dif_neg (show ¬(0 : Fin S256x64.rank) ∈ D1.lhsBatch by decide), dif_pos (show (0 : Fin S256x64.rank) ∈ D1.lhsNonContracting by decide)]
  rfl
theorem D1_lhs1 (i : S256x2048.Idx) (q : D1.contr.Idx) : (D1.lhsIdx i q 1).val = (q ⟨0, by decide⟩).val :=
  D1.lhsIdx_val_of_single rfl i q
theorem D1_rhs0 (i : S256x2048.Idx) (q : D1.contr.Idx) : (D1.rhsIdx i q 0).val = (q ⟨0, by decide⟩).val :=
  D1.rhsIdx_val_of_single rfl i q
theorem D1_rhs1 (i : S256x2048.Idx) (q : D1.contr.Idx) : (D1.rhsIdx i q 1).val = (i 1).val := by
  unfold DotDims.rhsIdx
  rw [dif_neg (show ¬(1 : Fin S64x2048.rank) ∈ D1.rhsBatch by decide), dif_pos (show (1 : Fin S64x2048.rank) ∈ D1.rhsNonContracting by decide)]
  rfl

/-- The `[256, 64] × [64, 2048]` product at `(r, s)`. -/
theorem mm1_apply {φ₁ φ₂ : FTy} (L : FVec Ideal S256x64 φ₁) (R : FVec Ideal S64x2048 φ₂) (r : Fin 256) (s : Fin 2048) :
    matmul D1 none L R (constant S256x2048 .f32 0x00000000#32) (ix2 r s) = ∑ d : Fin 64, L (ix2 r d) * R (ix2 d s) := by
  refine (Ideal.matmul_constant_zero_apply D1 none L R (ix2 r s)).trans ?_
  rw [← Equiv.sum_comp (contrEquiv1 D1 64 rfl rfl).symm]
  refine Finset.sum_congr rfl fun k _ => ?_
  have hk := contrEquiv1_symm_val D1 64 rfl rfl k
  have el : D1.lhsIdx (ix2 r s) ((contrEquiv1 D1 64 rfl rfl).symm k) = ix2 r k := funext fun a => Fin.ext (by
    match a with
    | ⟨0, _⟩ => exact D1_lhs0 _ _
    | ⟨1, _⟩ => exact (D1_lhs1 _ _).trans hk)
  have er : D1.rhsIdx (ix2 r s) ((contrEquiv1 D1 64 rfl rfl).symm k) = ix2 k s := funext fun a => Fin.ext (by
    match a with
    | ⟨0, _⟩ => exact (D1_rhs0 _ _).trans hk
    | ⟨1, _⟩ => exact D1_rhs1 _ _)
  rw [el, er]

theorem D2_lhs0 (i : S256x64.Idx) (q : D2.contr.Idx) : (D2.lhsIdx i q 0).val = (i 0).val := by
  unfold DotDims.lhsIdx
  rw [dif_neg (show ¬(0 : Fin S256x2048.rank) ∈ D2.lhsBatch by decide), dif_pos (show (0 : Fin S256x2048.rank) ∈ D2.lhsNonContracting by decide)]
  rfl
theorem D2_lhs1 (i : S256x64.Idx) (q : D2.contr.Idx) : (D2.lhsIdx i q 1).val = (q ⟨0, by decide⟩).val :=
  D2.lhsIdx_val_of_single rfl i q
theorem D2_rhs0 (i : S256x64.Idx) (q : D2.contr.Idx) : (D2.rhsIdx i q 0).val = (q ⟨0, by decide⟩).val :=
  D2.rhsIdx_val_of_single rfl i q
theorem D2_rhs1 (i : S256x64.Idx) (q : D2.contr.Idx) : (D2.rhsIdx i q 1).val = (i 1).val := by
  unfold DotDims.rhsIdx
  rw [dif_neg (show ¬(1 : Fin S2048x64.rank) ∈ D2.rhsBatch by decide), dif_pos (show (1 : Fin S2048x64.rank) ∈ D2.rhsNonContracting by decide)]
  rfl

/-- The `[256, 2048] × [2048, 64]` product at `(r, d)`. -/
theorem mm2_apply {φ₁ φ₂ : FTy} (L : FVec Ideal S256x2048 φ₁) (R : FVec Ideal S2048x64 φ₂) (r : Fin 256) (d : Fin 64) :
    matmul D2 none L R (constant S256x64 .f32 0x00000000#32) (ix2 r d) = ∑ s : Fin 2048, L (ix2 r s) * R (ix2 s d) := by
  refine (Ideal.matmul_constant_zero_apply D2 none L R (ix2 r d)).trans ?_
  rw [← Equiv.sum_comp (contrEquiv1 D2 2048 rfl rfl).symm]
  refine Finset.sum_congr rfl fun k _ => ?_
  have hk := contrEquiv1_symm_val D2 2048 rfl rfl k
  have el : D2.lhsIdx (ix2 r d) ((contrEquiv1 D2 2048 rfl rfl).symm k) = ix2 r k := funext fun a => Fin.ext (by
    match a with
    | ⟨0, _⟩ => exact D2_lhs0 _ _
    | ⟨1, _⟩ => exact (D2_lhs1 _ _).trans hk)
  have er : D2.rhsIdx (ix2 r d) ((contrEquiv1 D2 2048 rfl rfl).symm k) = ix2 k d := funext fun a => Fin.ext (by
    match a with
    | ⟨0, _⟩ => exact (D2_rhs0 _ _).trans hk
    | ⟨1, _⟩ => exact D2_rhs1 _ _)
  rw [el, er]

/-! ## From a block of scores to a block of weights -/

/-- The largest score of each row, spread along the row. -/
def rowMaxCol (v : FVec Ideal S256x2048 .f32) : FVec Ideal S256x2048 .f32 :=
  broadcastTo S256x2048 (shapeCast S256x1 (multiReduction .maximumf [1] S256 v 0xFF800000#32 Facts₀.reduces_S256x2048_S256 (.inl rfl) rfl)
    Facts₀.shapeCasts_S256_S256x1) Facts₀.broadcasts_S256x1_S256x2048

/-- The exponentials of the scores less their row's largest. -/
def expBlock (v : FVec Ideal S256x2048 .f32) : FVec Ideal S256x2048 .f32 := exp (subf v (rowMaxCol v))

/-- The sum of each row, spread along the row. -/
def rowSumCol (v : FVec Ideal S256x2048 .f32) : FVec Ideal S256x2048 .f32 :=
  broadcastTo S256x2048 (shapeCast S256x1 (multiReduction .add [1] S256 v 0x00000000#32 Facts₀.reduces_S256x2048_S256 (.inl rfl) rfl)
    Facts₀.shapeCasts_S256_S256x1) Facts₀.broadcasts_S256x1_S256x2048

/-- The weights: each exponential over its row's sum. -/
def weights (v : FVec Ideal S256x2048 .f32) : FVec Ideal S256x2048 .f32 := divf (expBlock v) (rowSumCol (expBlock v))

theorem lift_row (r : Fin 256) (k : Fin 2048) : Facts₀.reduces_S256x2048_S256.lift (ix1 r) k = ix2 r k :=
  funext fun a => Fin.ext (by match a with | ⟨0, _⟩ => rfl | ⟨1, _⟩ => rfl)

theorem rowMaxCol_apply (v : FVec Ideal S256x2048 .f32) (r : Fin 256) (s : Fin 2048) :
    rowMaxCol v (ix2 r s) = rowMax (fun s' => v (ix2 r s')) := by
  unfold rowMaxCol
  refine (broadcastTo_a1_ab_apply _ _ r s).trans ?_
  refine (shapeCast_a_a1_apply _ _ r 0).trans ?_
  refine (Ideal.multiReduction_maximumf_single _ _ _ _ _ (ix1 r)).trans ?_
  unfold rowMax
  have e : (v ∘ Facts₀.reduces_S256x2048_S256.lift (ix1 r)) = fun s' => v (ix2 r s') :=
    funext fun k => congrArg v (lift_row r k)
  exact congrArg (fun f => (Finset.univ : Finset (Fin 2048)).fold max (Ideal.ofBits .f32 0xFF800000#32) f) e

theorem expBlock_apply (v : FVec Ideal S256x2048 .f32) (r : Fin 256) (s : Fin 2048) :
    expBlock v (ix2 r s) = Ideal.exp (v (ix2 r s) - rowMax (fun s' => v (ix2 r s'))) := by
  unfold expBlock
  show Ideal.exp (v (ix2 r s) - rowMaxCol v (ix2 r s)) = _
  rw [rowMaxCol_apply]

theorem rowSumCol_apply (v : FVec Ideal S256x2048 .f32) (r : Fin 256) (s : Fin 2048) :
    rowSumCol v (ix2 r s) = ∑ s' : Fin 2048, v (ix2 r s') := by
  unfold rowSumCol
  refine (broadcastTo_a1_ab_apply _ _ r s).trans ?_
  refine (shapeCast_a_a1_apply _ _ r 0).trans ?_
  refine (Ideal.multiReduction_add_single _ _ _ _ _ (ix1 r)).trans ?_
  show ∑ k : Fin 2048, _ = ∑ k : Fin 2048, _
  exact Finset.sum_congr rfl fun k _ => congrArg v (lift_row r k)

/-- One weight: the normalised exponential of its row of scores. -/
theorem weights_apply (v : FVec Ideal S256x2048 .f32) (r : Fin 256) (s : Fin 2048) :
    weights v (ix2 r s) = soft (fun s' => v (ix2 r s')) s := by
  unfold weights soft
  show Ideal.div (expBlock v (ix2 r s)) (rowSumCol (expBlock v) (ix2 r s)) = _
  rw [rowSumCol_apply, expBlock_apply]
  exact congrArg (Ideal.div _) (Finset.sum_congr rfl fun s' _ => expBlock_apply v r s')

/-- The body's weights are `weights` of the periodic term plus the scaled magnitude term. -/
theorem pay1_eq (v35 v39 : FVec Ideal S256x2048 .f32) :
    k0_pay1 (F := Ideal) v35 v39
      = weights (addf v35 (mulf v39 (broadcast S256x2048 (Scalar.ofBits (F := Ideal) .f32 0x3D800000#32)))) := rfl

theorem pay1_apply (v35 v39 : FVec Ideal S256x2048 .f32) (r : Fin 256) (s : Fin 2048) :
    k0_pay1 (F := Ideal) v35 v39 (ix2 r s)
      = soft (fun s' => v35 (ix2 r s') + v39 (ix2 r s') * Ideal.ofBits .f32 0x3D800000#32) s := by
  rw [pay1_eq, weights_apply]
  rfl

/-- The stored block of weights. -/
theorem pay2_apply (v35 v39 : FVec Ideal S256x2048 .f32) (u : Fin 1) (r : Fin 256) (s : Fin 2048) :
    k0_pay2 (F := Ideal) v35 v39 (ix3 u r s) = k0_pay1 (F := Ideal) v35 v39 (ix2 r s) :=
  shapeCast_ab_1ab_apply (k0_pay1 (F := Ideal) v35 v39) _ u r s

/-- The stored block of outputs: the weighted sums of the value rows. -/
theorem pay3_apply (v5 : FVec Ideal S2048x64 .f32) (v35 v39 : FVec Ideal S256x2048 .f32) (u : Fin 1) (r : Fin 256) (d : Fin 64) :
    k0_pay3 (F := Ideal) v5 v35 v39 (ix3 u r d) = ∑ s : Fin 2048, k0_pay1 (F := Ideal) v35 v39 (ix2 r s) * v5 (ix2 s d) := by
  unfold k0_pay3
  refine (shapeCast_ab_1ab_apply _ _ u r d).trans ?_
  exact mm2_apply _ _ r d

/-! ## The scores of a block

The rows are normalised, their inner products taken by the first matrix product (the key block transposed), and the
periodic term is a pointwise function of those cosine similarities. -/

/-- The query block with each entry divided by its row's length. -/
def qn (x0 : Vec Ideal S1x256x64 .f32) : FVec Ideal S256x64 .f32 :=
  divf (k0_pay4 (F := Ideal) x0) (broadcastTo S256x64 (sqrt (k0_pay7 (F := Ideal) x0)) Facts₀.broadcasts_S256x1_S256x64)

/-- The key block with each entry divided by its row's length. -/
def kn (x1 : Vec Ideal S1x2048x64 .f32) : FVec Ideal S2048x64 .f32 :=
  divf (k0_pay5 (F := Ideal) x1) (broadcastTo S2048x64 (sqrt (k0_pay8 (F := Ideal) x1)) Facts₀.broadcasts_S2048x1_S2048x64)

theorem qn_apply (x0 : Vec Ideal S1x256x64 .f32) (r : Fin 256) (d : Fin 64) :
    qn x0 (ix2 r d) = Ideal.div (x0 (ix3 (0 : Fin 1) r d)) (Ideal.sqrt (PeriodicAttn.sq (fun d' => x0 (ix3 (0 : Fin 1) r d')))) := by
  unfold qn
  show Ideal.div (k0_pay4 (F := Ideal) x0 (ix2 r d)) (broadcastTo S256x64 (sqrt (k0_pay7 (F := Ideal) x0)) Facts₀.broadcasts_S256x1_S256x64 (ix2 r d)) = _
  refine congrArg₂ Ideal.div (pay4_apply x0 r d) ?_
  refine (broadcastTo_a1_ab_apply _ _ r d).trans ?_
  show Ideal.sqrt (k0_pay7 (F := Ideal) x0 (ix2 r (0 : Fin 1))) = _
  exact congrArg Ideal.sqrt (pay7_apply x0 r 0)

theorem kn_apply (x1 : Vec Ideal S1x2048x64 .f32) (s : Fin 2048) (d : Fin 64) :
    kn x1 (ix2 s d) = Ideal.div (x1 (ix3 (0 : Fin 1) s d)) (Ideal.sqrt (PeriodicAttn.sq (fun d' => x1 (ix3 (0 : Fin 1) s d')))) := by
  unfold kn
  show Ideal.div (k0_pay5 (F := Ideal) x1 (ix2 s d)) (broadcastTo S2048x64 (sqrt (k0_pay8 (F := Ideal) x1)) Facts₀.broadcasts_S2048x1_S2048x64 (ix2 s d)) = _
  refine congrArg₂ Ideal.div (pay5_apply x1 s d) ?_
  refine (broadcastTo_a1_ab_apply _ _ s d).trans ?_
  show Ideal.sqrt (k0_pay8 (F := Ideal) x1 (ix2 s (0 : Fin 1))) = _
  exact congrArg Ideal.sqrt (pay8_apply x1 s 0)

/-- The block of cosine similarities: normalised query rows against normalised key rows. -/
def cosBlock (x0 : Vec Ideal S1x256x64 .f32) (x1 : Vec Ideal S1x2048x64 .f32) : FVec Ideal S256x2048 .f32 :=
  matmul D1 none (truncf .bf16 (qn x0) bitsLt_bf16_f32)
    (transpose S64x2048 [1, 0] (truncf .bf16 (kn x1) bitsLt_bf16_f32) Facts₀.transposes_S2048x64_p1_0_S64x2048)
    (constant S256x2048 .f32 0x00000000#32)

theorem cosBlock_apply (x0 : Vec Ideal S1x256x64 .f32) (x1 : Vec Ideal S1x2048x64 .f32) (r : Fin 256) (s : Fin 2048) :
    cosBlock x0 x1 (ix2 r s) = cosSim (fun d => x0 (ix3 (0 : Fin 1) r d)) (fun d => x1 (ix3 (0 : Fin 1) s d)) := by
  unfold cosBlock cosSim
  refine (mm1_apply _ _ r s).trans ?_
  refine Finset.sum_congr rfl fun d _ => ?_
  refine congrArg₂ (· * ·) (qn_apply x0 r d) ?_
  exact (transpose_ix2_apply _ _ d s).trans (kn_apply x1 s d)

/-- The periodic term as a pointwise function of the cosine similarities. -/
def periodic (c : FVec Ideal S256x2048 .f32) : FVec Ideal S256x2048 .f32 :=
  mulf (subf (cos (mulf (broadcast S256x2048 (Scalar.ofBits (F := Ideal) .f32 0x40C90FDB#32))
      (sqrt (maximumf (subf (broadcast S256x2048 (Scalar.ofBits (F := Ideal) .f32 0x4000002A#32))
          (mulf (broadcast S256x2048 (Scalar.ofBits (F := Ideal) .f32 0x40000000#32)) c))
        (broadcast S256x2048 (Scalar.ofBits (F := Ideal) .f32 0x00000000#32))))))
    (broadcast S256x2048 (Scalar.ofBits (F := Ideal) .f32 0x3F800000#32)))
    (broadcast S256x2048 (Scalar.ofBits (F := Ideal) .f32 0x3E000000#32))

theorem periodic_apply (c : FVec Ideal S256x2048 .f32) (i : S256x2048.Idx) :
    periodic c i = (Ideal.cos (Ideal.ofBits .f32 0x40C90FDB#32 * Ideal.sqrt (max (Ideal.ofBits .f32 0x4000002A#32
      - Ideal.ofBits .f32 0x40000000#32 * c i) (Ideal.ofBits .f32 0x00000000#32))) - Ideal.ofBits .f32 0x3F800000#32)
      * Ideal.ofBits .f32 0x3E000000#32 := rfl

theorem pay9_eq (x0 : Vec Ideal S1x256x64 .f32) (x1 : Vec Ideal S1x2048x64 .f32) :
    k0_pay9 (F := Ideal) x0 x1 = periodic (cosBlock x0 x1) := rfl

/-- The magnitude term before scaling: the two squared lengths added. -/
theorem pay10_apply (x0 : Vec Ideal S1x256x64 .f32) (x1 : Vec Ideal S1x2048x64 .f32) (r : Fin 256) (s : Fin 2048) :
    k0_pay10 (F := Ideal) x0 x1 (ix2 r s)
      = PeriodicAttn.sq (fun d => x0 (ix3 (0 : Fin 1) r d)) + PeriodicAttn.sq (fun d => x1 (ix3 (0 : Fin 1) s d)) := by
  unfold k0_pay10
  show broadcastTo S256x2048 (k0_pay7 (F := Ideal) x0) Facts₀.broadcasts_S256x1_S256x2048 (ix2 r s)
      + broadcastTo S256x2048 (transpose S1x2048 [1, 0] (k0_pay8 (F := Ideal) x1) Facts₀.transposes_S2048x1_p1_0_S1x2048)
          Facts₀.broadcasts_S1x2048_S256x2048 (ix2 r s) = _
  refine congrArg₂ (· + ·) ?_ ?_
  · exact (broadcastTo_a1_ab_apply _ _ r s).trans (pay7_apply x0 r 0)
  · refine (broadcastTo_1b_ab_apply _ _ r s).trans ?_
    exact (transpose_ix2_apply _ _ (0 : Fin 1) s).trans (pay8_apply x1 s 0)

/-- The score of query row `r` against key row `s`, in its cosine form. -/
theorem score_apply (x0 : Vec Ideal S1x256x64 .f32) (x1 : Vec Ideal S1x2048x64 .f32) (r : Fin 256) (s : Fin 2048) :
    k0_pay9 (F := Ideal) x0 x1 (ix2 r s) + k0_pay10 (F := Ideal) x0 x1 (ix2 r s) * Ideal.ofBits .f32 0x3D800000#32
      = scoreK (fun d => x0 (ix3 (0 : Fin 1) r d)) (fun d => x1 (ix3 (0 : Fin 1) s d)) := by
  rw [pay9_eq, periodic_apply, cosBlock_apply, pay10_apply]
  rfl

/-- The stored weights of the block at `(r, s)`. -/
theorem weights_entry (x0 : Vec Ideal S1x256x64 .f32) (x1 : Vec Ideal S1x2048x64 .f32) (u : Fin 1) (r : Fin 256) (s : Fin 2048) :
    k0_pay2 (F := Ideal) (k0_pay9 x0 x1) (k0_pay10 x0 x1) (ix3 u r s)
      = soft (fun s' => scoreK (fun d => x0 (ix3 (0 : Fin 1) r d)) (fun d => x1 (ix3 (0 : Fin 1) s' d))) s := by
  rw [pay2_apply, pay1_apply]
  exact congrArg (fun S => soft S s) (funext fun s' => score_apply x0 x1 r s')

/-- The stored outputs of the block at `(r, d)`. -/
theorem out_entry (x0 : Vec Ideal S1x256x64 .f32) (x1 x2 : Vec Ideal S1x2048x64 .f32) (u : Fin 1) (r : Fin 256) (d : Fin 64) :
    k0_pay3 (F := Ideal) (k0_pay6 x2) (k0_pay9 x0 x1) (k0_pay10 x0 x1) (ix3 u r d)
      = mix (fun s => soft (fun s' => scoreK (fun d' => x0 (ix3 (0 : Fin 1) r d')) (fun d' => x1 (ix3 (0 : Fin 1) s' d'))) s)
          (fun s => x2 (ix3 (0 : Fin 1) s d)) := by
  rw [pay3_apply]
  unfold mix
  refine Finset.sum_congr rfl fun s _ => ?_
  refine congrArg₂ (· * ·) ?_ (pay6_apply x2 s d)
  rw [pay1_apply]
  exact congrArg (fun S => soft S s) (funext fun s' => score_apply x0 x1 r s')

end Cert.KernelPay

end
-- ==== Proof.KernelBlocks.lean ====
/-
  The kernel's two result arrays, entry by entry.

  The grid has 256 points; point `t` works on the (batch, head) slab `t / 8` and on the block of 256 query rows
  number `t % 8` of that slab, against all 2048 key rows and all 2048 value rows of the slab. What a point writes back
  is its block of one function of the three arrays: the weights of query row `r` of slab `bh` against key row `s`
  for the weights array, their weighted sum of column `d` of the value rows for the output array. The blocks of the
  256 points tile both arrays, so after the run each array is that function at every index.
-/
import proofs.«114575_j82592221102308_2_alg».proof.Proof.Gen.KernelIdeal.Frame
import proofs.«114575_j82592221102308_2_alg».proof.Proof.KernelPay
import proofs.«114575_j82592221102308_2_alg».proof.Proof.Spec
import Idealize.ShloMosaic.Lib.Pipeline.Value
import Idealize.ShloMosaic.Lib.ValueIdx

noncomputable section

open scoped BigOperators

namespace Cert.KernelBlocks

open Cert.KernelIdeal Cert.KernelIdeal.Gen Idealize.ShloMosaic Idealize.ShloMosaic.TcCoe Idealize.SL.Sem
open Idealize.ShloMosaic.ValueIdx Cert.PeriodicAttn Cert.KernelPay
open Idealize.ShloMosaic.Pipeline (Dat)

variable (m : (ℓ : Loc nD τ sig) → Buf (Elt Ideal) ℓ)

/-! ## The two arrays as functions of the three argument arrays -/

/-- The weight of query row `r` of slab `bh` on key row `s`. -/
def weightAt (A0 A1 : S32x2048x64.Idx → EReal) (bh : Fin 32) (r s : Fin 2048) : EReal :=
  soft (fun s' => scoreK (fun d => A0 (ix3 bh r d)) (fun d => A1 (ix3 bh s' d))) s

/-- Entry `d` of the weighted sum of the value rows for query row `r` of slab `bh`. -/
def outAt (A0 A1 A2 : S32x2048x64.Idx → EReal) (bh : Fin 32) (r : Fin 2048) (d : Fin 64) : EReal :=
  mix (fun s => weightAt A0 A1 bh r s) (fun s => A2 (ix3 bh s d))

/-- The weights array. -/
def weightArr (A0 A1 : S32x2048x64.Idx → EReal) : S32x2048x2048.Idx → EReal := fun i =>
  weightAt A0 A1 ⟨(i 0).val, (i 0).isLt⟩ ⟨(i 1).val, (i 1).isLt⟩ ⟨(i 2).val, (i 2).isLt⟩

/-- The output array. -/
def outArr (A0 A1 A2 : S32x2048x64.Idx → EReal) : S32x2048x64.Idx → EReal := fun i =>
  outAt A0 A1 A2 ⟨(i 0).val, (i 0).isLt⟩ ⟨(i 1).val, (i 1).isLt⟩ ⟨(i 2).val, (i 2).isLt⟩

/-! ## Where each window's block sits -/

theorem hz : (![0, 0, 0] : Fin 3 → Nat) = fun _ => 0 := funext fun a => by fin_cases a <;> rfl

/-- The block indices of the five windows at every grid point: the slab is `t / 8`; the query block, and with it the
    block of either result, is `t % 8`; the key and value windows hold the whole slab. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- Row `r` of the query block at point `t` is row `256 (t % 8) + r` of slab `t / 8` of the first array. -/
theorem query_block (c : Dev nD) (t : Fin cfg0.N) (r : Fin 256) (d : Fin 64) (bh : Fin 32) (R : Fin 2048)
    (hbh : bh.val = t.val / 8) (hR : R.val = 256 * (t.val % 8) + r.val) :
    (iblk m c 0 t : Vec Ideal S1x256x64 .f32) (ix3 (0 : Fin 1) r d)
      = (V m c main_v0 : S32x2048x64.Idx → EReal) (ix3 bh R d) := by
  obtain ⟨e0, e1, e2, -⟩ := idx_facts t
  unfold iblk
  rw [View.read_apply]
  show V m c main_v0 (((cfg0.win 0).blk t).view.emb (ix3 (0 : Fin 1) r d)) = V m c main_v0 (ix3 bh R d)
  refine congrArg (V m c main_v0 : S32x2048x64.Idx → EReal) ?_
  funext a; apply Fin.ext
  match a with
  | ⟨0, _⟩ => show win0_0.index t (0 : Fin 3) * 1 + 1 * 0 = bh.val; omega
  | ⟨1, _⟩ => show win0_0.index t (1 : Fin 3) * 256 + 1 * r.val = R.val; omega
  | ⟨2, _⟩ => show win0_0.index t (2 : Fin 3) * 64 + 1 * d.val = d.val; omega

/-- Row `s` of the key block at point `t` is row `s` of slab `t / 8` of the second array. -/
theorem key_block (c : Dev nD) (t : Fin cfg0.N) (s : Fin 2048) (d : Fin 64) (bh : Fin 32) (hbh : bh.val = t.val / 8) :
    (iblk m c 1 t : Vec Ideal S1x2048x64 .f32) (ix3 (0 : Fin 1) s d)
      = (V m c main_v1 : S32x2048x64.Idx → EReal) (ix3 bh s d) := by
  obtain ⟨-, -, -, e0, e1, e2, -⟩ := idx_facts t
  unfold iblk
  rw [View.read_apply]
  show V m c main_v1 (((cfg0.win 1).blk t).view.emb (ix3 (0 : Fin 1) s d)) = V m c main_v1 (ix3 bh s d)
  refine congrArg (V m c main_v1 : S32x2048x64.Idx → EReal) ?_
  funext a; apply Fin.ext
  match a with
  | ⟨0, _⟩ => show win0_1.index t (0 : Fin 3) * 1 + 1 * 0 = bh.val; omega
  | ⟨1, _⟩ => show win0_1.index t (1 : Fin 3) * 2048 + 1 * s.val = s.val; omega
  | ⟨2, _⟩ => show win0_1.index t (2 : Fin 3) * 64 + 1 * d.val = d.val; omega

/-- Row `s` of the value block at point `t` is row `s` of slab `t / 8` of the third array. -/
theorem value_block (c : Dev nD) (t : Fin cfg0.N) (s : Fin 2048) (d : Fin 64) (bh : Fin 32) (hbh : bh.val = t.val / 8) :
    (iblk m c 2 t : Vec Ideal S1x2048x64 .f32) (ix3 (0 : Fin 1) s d)
      = (V m c main_v2 : S32x2048x64.Idx → EReal) (ix3 bh s d) := by
  obtain ⟨-, -, -, -, -, -, e0, e1, e2, -⟩ := idx_facts t
  unfold iblk
  rw [View.read_apply]
  show V m c main_v2 (((cfg0.win 2).blk t).view.emb (ix3 (0 : Fin 1) s d)) = V m c main_v2 (ix3 bh s d)
  refine congrArg (V m c main_v2 : S32x2048x64.Idx → EReal) ?_
  funext a; apply Fin.ext
  match a with
  | ⟨0, _⟩ => show win0_2.index t (0 : Fin 3) * 1 + 1 * 0 = bh.val; omega
  | ⟨1, _⟩ => show win0_2.index t (1 : Fin 3) * 2048 + 1 * s.val = s.val; omega
  | ⟨2, _⟩ => show win0_2.index t (2 : Fin 3) * 64 + 1 * d.val = d.val; omega

/-! ## What a grid point writes back -/

/-- Point `t` writes back its block of the weights array. -/
theorem flushed_weights (c : Dev nD) (t : Fin cfg0.N) :
    (dats m 0 c).flushed 4 t
      = ((cfg0.win 4).blk t).view.read (Elt Ideal) (weightArr (V m c main_v0) (V m c main_v1)) := by
  show (cfg0.win 4).cut (grid0.coords t) ((dats m 0 c).after 4 t) = _
  rw [after0_4]
  unfold out0_4
  rw [View.canon_unit_zero hz]
  simp only [View.ld_unit_zero (S := S1x256x64) hz, View.ld_unit_zero (S := S1x2048x64) hz]
  refine funext fun (y : S1x256x2048.Idx) => ?_
  obtain ⟨u, r, s, rfl⟩ : ∃ (u : Fin 1) (r : Fin 256) (s : Fin 2048), y = ix3 u r s := ⟨y 0, y 1, y 2, eq_ix3 y⟩
  show k0_pay2 (F := Ideal) (k0_pay9 (iblk m c 0 t) (iblk m c 1 t)) (k0_pay10 (iblk m c 0 t) (iblk m c 1 t)) (ix3 u r s)
      = weightArr (V m c main_v0) (V m c main_v1) (((cfg0.win 4).blk t).view.emb (ix3 u r s))
  refine (weights_entry (iblk m c 0 t) (iblk m c 1 t) u r s).trans ?_
  have hN : cfg0.N = 256 := N_0
  have ht : t.val < 256 := by have := t.isLt; omega
  obtain ⟨bh, hbh⟩ : ∃ bh : Fin 32, bh.val = t.val / 8 := ⟨⟨t.val / 8, by omega⟩, rfl⟩
  obtain ⟨R, hR⟩ : ∃ R : Fin 2048, R.val = 256 * (t.val % 8) + r.val := ⟨⟨256 * (t.val % 8) + r.val, by omega⟩, rfl⟩
  obtain ⟨-, -, -, -, -, -, -, -, -, -, -, -, e0, e1, e2⟩ := idx_facts t
  have e : ((cfg0.win 4).blk t).view.emb (ix3 u r s) = (ix3 bh R s : S32x2048x2048.Idx) := by
    funext a; apply Fin.ext
    match a with
    | ⟨0, _⟩ => show win0_4.index t (0 : Fin 3) * 1 + 1 * u.val = bh.val; omega
    | ⟨1, _⟩ => show win0_4.index t (1 : Fin 3) * 256 + 1 * r.val = R.val; omega
    | ⟨2, _⟩ => show win0_4.index t (2 : Fin 3) * 2048 + 1 * s.val = s.val; omega
  refine Eq.trans ?_ (congrArg (weightArr (V m c main_v0) (V m c main_v1)) e.symm)
  show _ = weightAt (V m c main_v0) (V m c main_v1) bh R s
  unfold weightAt
  refine congrArg (fun S => soft S s) (funext fun s' => ?_)
  exact congrArg₂ scoreK (funext fun d => query_block m c t r d bh R hbh hR) (funext fun d => key_block m c t s' d bh hbh)

/-- Point `t` writes back its block of the output array. -/
theorem flushed_out (c : Dev nD) (t : Fin cfg0.N) :
    (dats m 0 c).flushed 3 t
      = ((cfg0.win 3).blk t).view.read (Elt Ideal) (outArr (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x256x64) hz, View.ld_unit_zero (S := S1x2048x64) hz]
  refine funext fun (y : S1x256x64.Idx) => ?_
  obtain ⟨u, r, d, rfl⟩ : ∃ (u : Fin 1) (r : Fin 256) (d : Fin 64), y = ix3 u r d := ⟨y 0, y 1, y 2, eq_ix3 y⟩
  show k0_pay3 (F := Ideal) (k0_pay6 (iblk m c 2 t)) (k0_pay9 (iblk m c 0 t) (iblk m c 1 t))
        (k0_pay10 (iblk m c 0 t) (iblk m c 1 t)) (ix3 u r d)
      = outArr (V m c main_v0) (V m c main_v1) (V m c main_v2) (((cfg0.win 3).blk t).view.emb (ix3 u r d))
  refine (out_entry (iblk m c 0 t) (iblk m c 1 t) (iblk m c 2 t) u r d).trans ?_
  have hN : cfg0.N = 256 := N_0
  have ht : t.val < 256 := by have := t.isLt; omega
  obtain ⟨bh, hbh⟩ : ∃ bh : Fin 32, bh.val = t.val / 8 := ⟨⟨t.val / 8, by omega⟩, rfl⟩
  obtain ⟨R, hR⟩ : ∃ R : Fin 2048, R.val = 256 * (t.val % 8) + r.val := ⟨⟨256 * (t.val % 8) + r.val, by omega⟩, rfl⟩
  obtain ⟨-, -, -, -, -, -, -, -, -, e0, e1, e2, -⟩ := idx_facts t
  have e : ((cfg0.win 3).blk t).view.emb (ix3 u r d) = (ix3 bh R d : S32x2048x64.Idx) := by
    funext a; apply Fin.ext
    match a with
    | ⟨0, _⟩ => show win0_3.index t (0 : Fin 3) * 1 + 1 * u.val = bh.val; omega
    | ⟨1, _⟩ => show win0_3.index t (1 : Fin 3) * 256 + 1 * r.val = R.val; omega
    | ⟨2, _⟩ => show win0_3.index t (2 : Fin 3) * 64 + 1 * d.val = d.val; omega
  refine Eq.trans ?_ (congrArg (outArr (V m c main_v0) (V m c main_v1) (V m c main_v2)) e.symm)
  show _ = outAt (V m c main_v0) (V m c main_v1) (V m c main_v2) bh R d
  unfold outAt weightAt
  refine congrArg₂ mix (funext fun s => ?_) (funext fun s => value_block m c t s d bh hbh)
  refine congrArg (fun S => soft S s) (funext fun s' => ?_)
  exact congrArg₂ scoreK (funext fun d' => query_block m c t r d' bh R hbh hR) (funext fun d' => key_block m c t s' d' bh hbh)

/-! ## The blocks tile the arrays -/

/-- An index of the weights array is in point `t`'s block iff each coordinate is in the block's range on its axis. -/
theorem mem_block_weights (t : Fin cfg0.N) (i : S32x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3_1).slice (win0_4.rect t)).set ↔ _
  rw [View.set_slice_whole, Rect.mem_set_unit]
  exact Iff.rfl

/-- The same for the output array. -/
theorem mem_block_out (t : Fin cfg0.N) (i : S32x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3_0).slice (win0_3.rect t)).set ↔ _
  rw [View.set_slice_whole, Rect.mem_set_unit]
  exact Iff.rfl

/-- Row `r` of slab `bh` of the weights array is in the block of point `8 bh + r / 256`. -/
theorem cover_weights (i : S32x2048x2048.Idx) :
    ∃ t : Fin cfg0.N, (cfg0.win 4).flush t = true ∧ i ∈ ((cfg0.win 4).blk t).view.set := by
  have hN : cfg0.N = 256 := N_0
  have h0 : (i 0).val < 32 := (i 0).isLt
  have h1 : (i 1).val < 2048 := (i 1).isLt
  have h2 : (i 2).val < 2048 := (i 2).isLt
  obtain ⟨t, ht⟩ : ∃ t : Fin cfg0.N, t.val = 8 * (i 0).val + (i 1).val / 256 :=
    ⟨⟨8 * (i 0).val + (i 1).val / 256, by rw [hN]; omega⟩, rfl⟩
  obtain ⟨-, -, -, -, -, -, -, -, -, -, -, -, e0, e1, e2⟩ := idx_facts t
  refine ⟨t, flush0_4 t, ?_⟩
  rw [mem_block_weights]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- Row `r` of slab `bh` of the output array is in the block of point `8 bh + r / 256`. -/
theorem cover_out (i : S32x2048x64.Idx) :
    ∃ t : Fin cfg0.N, (cfg0.win 3).flush t = true ∧ i ∈ ((cfg0.win 3).blk t).view.set := by
  have hN : cfg0.N = 256 := N_0
  have h0 : (i 0).val < 32 := (i 0).isLt
  have h1 : (i 1).val < 2048 := (i 1).isLt
  have h2 : (i 2).val < 64 := (i 2).isLt
  obtain ⟨t, ht⟩ : ∃ t : Fin cfg0.N, t.val = 8 * (i 0).val + (i 1).val / 256 :=
    ⟨⟨8 * (i 0).val + (i 1).val / 256, by rw [hN]; omega⟩, rfl⟩
  obtain ⟨-, -, -, -, -, -, -, -, -, e0, e1, e2, -⟩ := idx_facts t
  refine ⟨t, flush0_3 t, ?_⟩
  rw [mem_block_out]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-! ## The arrays after the run -/

/-- The weights array after the run. -/
theorem final_weights (c : Dev nD) :
    (dats m 0 c).arrAt 4 cfg0.N = weightArr (V m c main_v0) (V m c main_v1) :=
  (dats m 0 c).arrAt_eq_of_cover 4 (weightArr (V m c main_v0) (V m c main_v1)) (fun t _ => flushed_weights m c t)
    cover_weights

/-- The output array after the run. -/
theorem final_out (c : Dev nD) :
    (dats m 0 c).arrAt 3 cfg0.N = outArr (V m c main_v0) (V m c main_v1) (V m c main_v2) :=
  (dats m 0 c).arrAt_eq_of_cover 3 (outArr (V m c main_v0) (V m c main_v1) (V m c main_v2))
    (fun t _ => flushed_out m c t) cover_out

/-- An entry of the weights array after the run. -/
theorem attn_arr (c : Dev nD) (bh : Fin 32) (r s : Fin 2048) :
    (dats m 0 c).arrAt 4 cfg0.N (ix3 bh r s)
      = soft (fun s' => scoreK (fun d => V m c main_v0 (ix3 bh r d)) (fun d => V m c main_v1 (ix3 bh s' d))) s := by
  rw [final_weights]
  rfl

/-- An entry of the output array after the run. -/
theorem out_arr (c : Dev nD) (bh : Fin 32) (r : Fin 2048) (d : Fin 64) :
    (dats m 0 c).arrAt 3 cfg0.N (ix3 bh r d)
      = mix (fun s => soft (fun s' => scoreK (fun d' => V m c main_v0 (ix3 bh r d')) (fun d' => V m c main_v1 (ix3 bh s' d'))) s)
          (fun s => V m c main_v2 (ix3 bh s d)) := by
  rw [final_out]
  rfl

end Cert.KernelBlocks

end
-- ==== Proof.KernelRun.lean ====
/-
  The kernel's run, read: after every weakly fair execution of the idealized kernel program the two result arrays hold,
  at batch `b`, head `h`, query row `q`, the weights `soft` of that row's scores against every key row of the same
  (batch, head) pair — the scores in their cosine form — and the weighted sums of the value rows; the arguments end
  unchanged. The program flattens (batch, head) into one axis of 32 slabs before the grid and unflattens the results
  after it: slab `8·b + h` is the pair `(b, h)`.
-/
import proofs.«114575_j82592221102308_2_alg».proof.Defs
import proofs.«114575_j82592221102308_2_alg».proof.Proof.Gen.KernelIdeal.Frame
import proofs.«114575_j82592221102308_2_alg».proof.Proof.Spec
import proofs.«114575_j82592221102308_2_alg».proof.Proof.KernelBlocks
import Idealize.ShloMosaic.Lib.ValueIdx
import Idealize.ShloMosaic.Lib.Pipeline.Value
import Idealize.ShloMosaic.Lib.StableHlo.Run

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen Cert.PeriodicAttn

variable (m : (ℓ : Loc nD τ sig) → Buf (Elt Ideal) ℓ) (ρ : Dev nD → PrngReg)

/-- The weights the run leaves at `(b, h, q, ·)`, as a function of the launch contents of the query and key arrays. -/
def attnRow (c : Dev nD) (b : Fin 4) (h : Fin 8) (q : Fin 2048) : Fin 2048 → EReal :=
  soft (fun s' => scoreK (fun d => m ((c.tc : Thread nD τ).loc main_arg0) (ix4 b h q d))
    (fun d => m ((c.tc : Thread nD τ).loc main_arg1) (ix4 b h s' d)))

/-! ## Flattening (batch, head) into 32 slabs and back -/

/-- The slab of the pair `(b, h)`. -/
def slab (b : Fin 4) (h : Fin 8) : Fin 32 := ⟨b.val * 8 + h.val, by have := b.isLt; have := h.isLt; omega⟩

/-- A `[4, 8, 2048, n]` array cast to `[32, 2048, n]` reads, at slab `8b + h`, the operand at `(b, h)`. -/
theorem merge_apply {α : Type} {n : ℕ} (x : (⟨4, ![4, 8, 2048, n]⟩ : Shape).Idx → α)
    (hc : (⟨4, ![4, 8, 2048, n]⟩ : Shape).ShapeCasts ⟨3, ![32, 2048, n]⟩) (b : Fin 4) (h : Fin 8) (r : Fin 2048) (d : Fin n) :
    shapeCast ⟨3, ![32, 2048, n]⟩ x hc (ix3 (slab b h) r d) = x (ix4 b h r d) :=
  shapeCast_apply x hc _ _ (by rw [Shape.rowMajor_val_four, Shape.rowMajor_val_three]; rfl)

/-- A `[32, 2048, n]` array cast to `[4, 8, 2048, n]` reads, at `(b, h)`, the operand at slab `8b + h`. -/
theorem split_apply {α : Type} {n : ℕ} (y : (⟨3, ![32, 2048, n]⟩ : Shape).Idx → α)
    (hc : (⟨3, ![32, 2048, n]⟩ : Shape).ShapeCasts ⟨4, ![4, 8, 2048, n]⟩) (b : Fin 4) (h : Fin 8) (r : Fin 2048) (d : Fin n) :
    shapeCast ⟨4, ![4, 8, 2048, n]⟩ y hc (ix4 b h r d) = y (ix3 (slab b h) r d) :=
  shapeCast_apply y hc _ _ (by rw [Shape.rowMajor_val_three, Shape.rowMajor_val_four]; rfl)

/-! ## The arrays the grid finds: the arguments, flattened -/

theorem V_v0 (c : Dev nD) : (V m c main_v0 : S32x2048x64.Idx → EReal)
    = shapeCast S32x2048x64 (m ((c.tc : Thread nD τ).loc main_arg0)) Facts₀.shapeCasts_S4x8x2048x64_S32x2048x64 := by
  show StableHlo.after hostOps0 (fun b => m (c, b)) (Proc.devRef .tc main_v0) = _
  after_results
  rfl

theorem V_v1 (c : Dev nD) : (V m c main_v1 : S32x2048x64.Idx → EReal)
    = shapeCast S32x2048x64 (m ((c.tc : Thread nD τ).loc main_arg1)) Facts₀.shapeCasts_S4x8x2048x64_S32x2048x64 := by
  show StableHlo.after hostOps0 (fun b => m (c, b)) (Proc.devRef .tc main_v1) = _
  after_results
  rfl

theorem V_v2 (c : Dev nD) : (V m c main_v2 : S32x2048x64.Idx → EReal)
    = shapeCast S32x2048x64 (m ((c.tc : Thread nD τ).loc main_arg2)) Facts₀.shapeCasts_S4x8x2048x64_S32x2048x64 := by
  show StableHlo.after hostOps0 (fun b => m (c, b)) (Proc.devRef .tc main_v2) = _
  after_results
  rfl

theorem V_v0_apply (c : Dev nD) (b : Fin 4) (h : Fin 8) (r : Fin 2048) (d : Fin 64) :
    (V m c main_v0 : S32x2048x64.Idx → EReal) (ix3 (slab b h) r d) = m ((c.tc : Thread nD τ).loc main_arg0) (ix4 b h r d) :=
  (congrFun (V_v0 m c) _).trans (merge_apply _ _ b h r d)

theorem V_v1_apply (c : Dev nD) (b : Fin 4) (h : Fin 8) (r : Fin 2048) (d : Fin 64) :
    (V m c main_v1 : S32x2048x64.Idx → EReal) (ix3 (slab b h) r d) = m ((c.tc : Thread nD τ).loc main_arg1) (ix4 b h r d) :=
  (congrFun (V_v1 m c) _).trans (merge_apply _ _ b h r d)

theorem V_v2_apply (c : Dev nD) (b : Fin 4) (h : Fin 8) (r : Fin 2048) (d : Fin 64) :
    (V m c main_v2 : S32x2048x64.Idx → EReal) (ix3 (slab b h) r d) = m ((c.tc : Thread nD τ).loc main_arg2) (ix4 b h r d) :=
  (congrFun (V_v2 m c) _).trans (merge_apply _ _ b h r d)

/-! ## The results: the grid's two output arrays, unflattened -/

theorem tail_v4 (c : Dev nD) : (Pipeline.afterTail₀ cfgs (dats m) 0 (V0 m) [hostOps1] c main_v4 : S4x8x2048x64.Idx → EReal)
    = shapeCast S4x8x2048x64 ((dats m 0 c).arrAt 3 cfg0.N) Facts₀.shapeCasts_S32x2048x64_S4x8x2048x64 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3_0)
      = (dats m 0 c).arrAt 3 cfg0.N := Pipeline.withArrays_arr spec0 launch0.win.arr_inj c _ _ 3
  rw [e]
  rfl

theorem tail_v5 (c : Dev nD) : (Pipeline.afterTail₀ cfgs (dats m) 0 (V0 m) [hostOps1] c main_v5 : S4x8x2048x2048.Idx → EReal)
    = shapeCast S4x8x2048x2048 ((dats m 0 c).arrAt 4 cfg0.N) Facts₀.shapeCasts_S32x2048x2048_S4x8x2048x2048 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v3_1)
      = (dats m 0 c).arrAt 4 cfg0.N := Pipeline.withArrays_arr spec0 launch0.win.arr_inj c _ _ 4
  rw [e]
  rfl

/-- THE RUN, READ. -/
theorem run : θ_run (defs (F := Ideal)) (onTc (τ := τ) (main (F := Ideal))) ⟨m, fun _ => 0, ρ⟩ (fun r => ∀ c : Dev nD,
      (∀ (b : Fin 4) (h : Fin 8) (q : Fin 2048) (d : Fin 64),
          (r.2.mem ((c.tc : Thread nD τ).loc main_v4) : S4x8x2048x64.Idx → EReal) (ix4 b h q d)
            = mix (attnRow m c b h q) (fun s => m ((c.tc : Thread nD τ).loc main_arg2) (ix4 b h s d)))
      ∧ (∀ (b : Fin 4) (h : Fin 8) (q s : Fin 2048),
          (r.2.mem ((c.tc : Thread nD τ).loc main_v5) : S4x8x2048x2048.Idx → EReal) (ix4 b h q s) = attnRow m c b h q s)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ⟨fun b hh q d => ?_, fun b hh q s => ?_, ?_, ?_, ?_⟩) (run_main m ρ)
  · have e := (h c).2 main_v4 (Pipeline.mem_restRefs_of main_v4 (by decide) (by decide))
    refine (congrFun e _).trans ?_
    refine (congrFun (tail_v4 m c) _).trans ?_
    refine (split_apply _ _ b hh q d).trans ?_
    refine (Cert.KernelBlocks.out_arr m c (slab b hh) q d).trans ?_
    unfold attnRow
    have hq : (fun d' => (V m c main_v0 : S32x2048x64.Idx → EReal) (ix3 (slab b hh) q d'))
        = fun d' => m ((c.tc : Thread nD τ).loc main_arg0) (ix4 b hh q d') := funext fun d' => V_v0_apply m c b hh q d'
    have hk : ∀ s' : Fin 2048, (fun d' => (V m c main_v1 : S32x2048x64.Idx → EReal) (ix3 (slab b hh) s' d'))
        = fun d' => m ((c.tc : Thread nD τ).loc main_arg1) (ix4 b hh s' d') := fun s' => funext fun d' => V_v1_apply m c b hh s' d'
    exact congrArg₂ mix (funext fun s => congrArg (fun S => soft S s) (funext fun s' => congrArg₂ scoreK hq (hk s')))
      (funext fun s => V_v2_apply m c b hh s d)
  · have e := (h c).2 main_v5 (Pipeline.mem_restRefs_of main_v5 (by decide) (by decide))
    refine (congrFun e _).trans ?_
    refine (congrFun (tail_v5 m c) _).trans ?_
    refine (split_apply _ _ b hh q s).trans ?_
    refine (Cert.KernelBlocks.attn_arr m c (slab b hh) q s).trans ?_
    unfold attnRow
    have hq : (fun d' => (V m c main_v0 : S32x2048x64.Idx → EReal) (ix3 (slab b hh) q d'))
        = fun d' => m ((c.tc : Thread nD τ).loc main_arg0) (ix4 b hh q d') := funext fun d' => V_v0_apply m c b hh q d'
    have hk : ∀ s' : Fin 2048, (fun d' => (V m c main_v1 : S32x2048x64.Idx → EReal) (ix3 (slab b hh) s' d'))
        = fun d' => m ((c.tc : Thread nD τ).loc main_arg1) (ix4 b hh s' d') := fun s' => funext fun d' => V_v1_apply m c b hh s' d'
    exact congrArg (fun S => soft S s) (funext fun s' => congrArg₂ scoreK hq (hk s'))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelRun

end
-- ==== Proof.RefRead.lean ====
/-
  The reference's result arrays read at an index.

  Each stage of the reference is read at the coordinates (b, h, r, s) of a score or (b, h, r, d) of an entry, from the
  query row `d ↦ x0 (b, h, r, d)`, the key row `d ↦ x1 (b, h, s, d)` and the value column `s ↦ x2 (b, h, s, d)`,
  in the vocabulary of the specification: squared row length, cosine similarity, gap, half-angle sine, score,
  row maximum, normalised exponentials, weighted sum.
-/
import proofs.«114575_j82592221102308_2_alg».proof.Defs
import proofs.«114575_j82592221102308_2_alg».proof.Proof.Gen.ReferenceIdeal.Run
import proofs.«114575_j82592221102308_2_alg».proof.Proof.Gen.ReferenceIdeal.Read
import proofs.«114575_j82592221102308_2_alg».proof.Proof.Spec
import Idealize.ShloMosaic.Lib.ValueIdx
import Idealize.ShloMosaic.Lib.Pipeline.Value
import Idealize.ShloMosaic.PureOps.Ideal.Laws

noncomputable section

open scoped BigOperators

namespace Cert.RefRead

open Cert.ReferenceIdeal Cert.ReferenceIdeal.Gen Cert.ReferenceIdeal.Read Idealize.ShloMosaic Idealize.ShloMosaic.ValueIdx Cert.PeriodicAttn

/-- An array of the arguments' shape, at the ideal instance. -/
abbrev Arr : Type := (⟨S4x8x2048x64, .f32⟩ : BufTy).Contents (Elt Ideal)

/-! ## The squared row lengths -/

/-- The sum of squares along the last axis, as the first normalisation computes it, is the row's squared length. -/
theorem call0_v1_at (x0 : Arr) (b : Fin 4) (h : Fin 8) (r : Fin 2048) :
    val_main_call0_v1 (F := Ideal) x0 (ix3 b h r) = PeriodicAttn.sq (fun d => x0 (ix4 b h r d)) := by
  rw [val_main_call0_v1_apply]
  simp only [val_main_call0_cst_apply, val_main_call0_v0_apply, Ideal.ofBits_def, Ideal.mulf_def, Ideal.ofBits_zero_f32, zero_add]
  unfold PeriodicAttn.sq
  refine Finset.sum_congr rfl fun k _ => ?_
  have e : idx_main_call0_v1 (ix3 b h r) k = ix4 b h r k :=
    funext fun a => Fin.ext (by match a with | ⟨0, _⟩ => rfl | ⟨1, _⟩ => rfl | ⟨2, _⟩ => rfl | ⟨3, _⟩ => rfl)
  rw [e]

/-- The same for the second normalisation. -/
theorem call1_v1_at (x1 : Arr) (b : Fin 4) (h : Fin 8) (r : Fin 2048) :
    val_main_call1_v1 (F := Ideal) x1 (ix3 b h r) = PeriodicAttn.sq (fun d => x1 (ix4 b h r d)) := by
  rw [val_main_call1_v1_apply]
  simp only [val_main_call1_cst_apply, val_main_call1_v0_apply, Ideal.ofBits_def, Ideal.mulf_def, Ideal.ofBits_zero_f32, zero_add]
  unfold PeriodicAttn.sq
  refine Finset.sum_congr rfl fun k _ => ?_
  have e : idx_main_call1_v1 (ix3 b h r) k = ix4 b h r k :=
    funext fun a => Fin.ext (by match a with | ⟨0, _⟩ => rfl | ⟨1, _⟩ => rfl | ⟨2, _⟩ => rfl | ⟨3, _⟩ => rfl)
  rw [e]

/-- The sum of squares of the query rows in the magnitude term. -/
theorem v25_at (x0 : Arr) (b : Fin 4) (h : Fin 8) (r : Fin 2048) :
    val_main_v25 (F := Ideal) x0 (ix3 b h r) = PeriodicAttn.sq (fun d => x0 (ix4 b h r d)) := by
  rw [val_main_v25_apply]
  simp only [val_main_cst_6_apply, val_main_v24_apply, Ideal.ofBits_def, Ideal.mulf_def, Ideal.ofBits_zero_f32, zero_add]
  unfold PeriodicAttn.sq
  refine Finset.sum_congr rfl fun k _ => ?_
  have e : idx_main_v25 (ix3 b h r) k = ix4 b h r k :=
    funext fun a => Fin.ext (by match a with | ⟨0, _⟩ => rfl | ⟨1, _⟩ => rfl | ⟨2, _⟩ => rfl | ⟨3, _⟩ => rfl)
  rw [e]

/-- The sum of squares of the key rows in the magnitude term. -/
theorem v28_at (x1 : Arr) (b : Fin 4) (h : Fin 8) (r : Fin 2048) :
    val_main_v28 (F := Ideal) x1 (ix3 b h r) = PeriodicAttn.sq (fun d => x1 (ix4 b h r d)) := by
  rw [val_main_v28_apply]
  simp only [val_main_cst_7_apply, val_main_v27_apply, Ideal.ofBits_def, Ideal.mulf_def, Ideal.ofBits_zero_f32, zero_add]
  unfold PeriodicAttn.sq
  refine Finset.sum_congr rfl fun k _ => ?_
  have e : idx_main_v28 (ix3 b h r) k = ix4 b h r k :=
    funext fun a => Fin.ext (by match a with | ⟨0, _⟩ => rfl | ⟨1, _⟩ => rfl | ⟨2, _⟩ => rfl | ⟨3, _⟩ => rfl)
  rw [e]

/-! ## The normalised rows -/

/-- An entry of the query array divided by its row's length. -/
theorem v4_at (x0 : Arr) (b : Fin 4) (h : Fin 8) (r : Fin 2048) (d : Fin 64) :
    val_main_v4 (F := Ideal) x0 (ix4 b h r d)
      = Ideal.div (x0 (ix4 b h r d)) (Ideal.sqrt (PeriodicAttn.sq (fun d' => x0 (ix4 b h r d')))) := by
  have e : idx_main_call0_v2 (idx_main_v3 (ix4 b h r d)) = ix3 b h r :=
    funext fun a => Fin.ext (by match a with | ⟨0, _⟩ => rfl | ⟨1, _⟩ => rfl | ⟨2, _⟩ => rfl)
  rw [val_main_v4_apply, val_main_v3_apply, val_main_v2_apply, val_main_call0_v2_apply, e, call0_v1_at]
  simp only [Ideal.hostDivf_def, Ideal.hostUnary_sqrt_def]

/-- An entry of the key array divided by its row's length. -/
theorem v7_at (x1 : Arr) (b : Fin 4) (h : Fin 8) (r : Fin 2048) (d : Fin 64) :
    val_main_v7 (F := Ideal) x1 (ix4 b h r d)
      = Ideal.div (x1 (ix4 b h r d)) (Ideal.sqrt (PeriodicAttn.sq (fun d' => x1 (ix4 b h r d')))) := by
  have e : idx_main_call1_v2 (idx_main_v6 (ix4 b h r d)) = ix3 b h r :=
    funext fun a => Fin.ext (by match a with | ⟨0, _⟩ => rfl | ⟨1, _⟩ => rfl | ⟨2, _⟩ => rfl)
  rw [val_main_v7_apply, val_main_v6_apply, val_main_v5_apply, val_main_call1_v2_apply, e, call1_v1_at]
  simp only [Ideal.hostDivf_def, Ideal.hostUnary_sqrt_def]

/-! ## The periodic term -/

/-- The inner product of a normalised query row and a normalised key row. -/
theorem v8_at (x0 x1 : Arr) (b : Fin 4) (h : Fin 8) (r s : Fin 2048) :
    val_main_v8 (F := Ideal) x0 x1 (ix4 b h r s)
      = cosSim (fun d => x0 (ix4 b h r d)) (fun d => x1 (ix4 b h s d)) := by
  rw [val_main_v8_apply]
  unfold cosSim
  refine Finset.sum_congr rfl fun k _ => ?_
  have el : lidx_main_v8 (ix4 b h r s) k = ix4 b h r k :=
    funext fun a => Fin.ext (by match a with | ⟨0, _⟩ => rfl | ⟨1, _⟩ => rfl | ⟨2, _⟩ => rfl | ⟨3, _⟩ => rfl)
  have er : ridx_main_v8 (ix4 b h r s) k = ix4 b h s k :=
    funext fun a => Fin.ext (by match a with | ⟨0, _⟩ => rfl | ⟨1, _⟩ => rfl | ⟨2, _⟩ => rfl | ⟨3, _⟩ => rfl)
  rw [el, er, v4_at, v7_at]

/-- The argument of the square root. -/
theorem v12_at (x0 x1 : Arr) (b : Fin 4) (h : Fin 8) (r s : Fin 2048) :
    val_main_v12 (F := Ideal) x0 x1 (ix4 b h r s)
      = gap (fun d => x0 (ix4 b h r d)) (fun d => x1 (ix4 b h s d)) := by
  rw [val_main_v12_apply, val_main_v11_apply, val_main_cst_2_apply, val_main_v10_apply, val_main_v9_apply,
    val_main_cst_1_apply, v8_at]
  simp only [Ideal.subf_def, Ideal.mulf_def, Ideal.ofBits_def]
  rfl

/-- The sine of the half angle. -/
theorem v18_at (x0 x1 : Arr) (b : Fin 4) (h : Fin 8) (r s : Fin 2048) :
    val_main_v18 (F := Ideal) x0 x1 (ix4 b h r s)
      = halfSin (fun d => x0 (ix4 b h r d)) (fun d => x1 (ix4 b h s d)) := by
  rw [val_main_v18_apply, val_main_v17_apply, val_main_v15_apply, val_main_v14_apply, val_main_cst_3_apply,
    val_main_v13_apply, val_main_v16_apply, val_main_cst_4_apply, v12_at]
  simp only [Ideal.hostUnary_sin_def, Ideal.hostDivf_def, Ideal.mulf_def, Ideal.hostUnary_sqrt_def, Ideal.ofBits_def]
  rfl

/-- The reciprocal of the root of the row width, as the reference computes it. -/
theorem v1_at (i : S_.Idx) : val_main_v1 (F := Ideal) i = invRoot := by
  rw [val_main_v1_apply, val_main_cst_0_apply, val_main_v0_apply, val_main_cst_apply]
  simp only [Ideal.hostDivf_def, Ideal.hostUnary_sqrt_def, Ideal.ofBits_def]
  rfl

/-- The periodic term of the score. -/
theorem v23_at (x0 x1 : Arr) (b : Fin 4) (h : Fin 8) (r s : Fin 2048) :
    val_main_v23 (F := Ideal) x0 x1 (ix4 b h r s)
      = Ideal.ofBits .f32 0xC0000000#32
          * (halfSin (fun d => x0 (ix4 b h r d)) (fun d => x1 (ix4 b h s d))
            * halfSin (fun d => x0 (ix4 b h r d)) (fun d => x1 (ix4 b h s d))) * invRoot := by
  rw [val_main_v23_apply, val_main_v21_apply, val_main_v20_apply, val_main_cst_5_apply, val_main_v19_apply,
    val_main_v22_apply, v1_at, v18_at]
  simp only [Ideal.mulf_def, Ideal.ofBits_def]

/-! ## The magnitude term -/

/-- The sum of the two squared row lengths, scaled. -/
theorem v36_at (x0 x1 : Arr) (b : Fin 4) (h : Fin 8) (r s : Fin 2048) :
    val_main_v36 (F := Ideal) x0 x1 (ix4 b h r s)
      = (PeriodicAttn.sq (fun d => x0 (ix4 b h r d)) + PeriodicAttn.sq (fun d => x1 (ix4 b h s d)))
          * (Ideal.ofBits .f32 0x3F000000#32 * invRoot) := by
  have eq : idx_main_v26 (idx_main_v31 (ix4 b h r s)) = ix3 b h r :=
    funext fun a => Fin.ext (by match a with | ⟨0, _⟩ => rfl | ⟨1, _⟩ => rfl | ⟨2, _⟩ => rfl)
  have ek : idx_main_v29 (idx_main_v30 (idx_main_v32 (ix4 b h r s))) = ix3 b h s :=
    funext fun a => Fin.ext (by match a with | ⟨0, _⟩ => rfl | ⟨1, _⟩ => rfl | ⟨2, _⟩ => rfl)
  rw [val_main_v36_apply, val_main_v33_apply, val_main_v31_apply, val_main_v26_apply, eq, v25_at,
    val_main_v32_apply, val_main_v30_apply, val_main_v29_apply, ek, v28_at,
    val_main_v35_apply, val_main_v34_apply, val_main_cst_8_apply, v1_at]
  simp only [Ideal.mulf_def, Ideal.addf_def, Ideal.ofBits_def]

/-! ## The score -/

/-- The score of a query row against a key row. -/
theorem v37_at (x0 x1 : Arr) (b : Fin 4) (h : Fin 8) (r s : Fin 2048) :
    val_main_v37 (F := Ideal) x0 x1 (ix4 b h r s)
      = scoreR (fun d => x0 (ix4 b h r d)) (fun d => x1 (ix4 b h s d)) := by
  rw [val_main_v37_apply, v23_at, v36_at]
  simp only [Ideal.addf_def]
  rfl

/-! ## The weights -/

/-- The largest score of a row, from −∞: the reduction over the last axis is the fold over that axis's coordinates. -/
theorem v38_at (x0 x1 : Arr) (b : Fin 4) (h : Fin 8) (r : Fin 2048) :
    val_main_v38 (F := Ideal) x0 x1 (ix3 b h r)
      = rowMax (fun s => scoreR (fun d => x0 (ix4 b h r d)) (fun d => x1 (ix4 b h s d))) := by
  have hR : S4x8x2048x2048.Reduces [3] S4x8x2048 := by decide
  unfold val_main_v38
  rw [Host.reduce_eq_fold_single FloatOps.maximumf _ _ reducesTo_S4x8x2048x2048_S4x8x2048_d3 hR h_S_,
    val_main_cst_9_apply]
  have hf : (val_main_v37 (F := Ideal) x0 x1 ∘ hR.lift (ix3 b h r))
      = fun s : Fin 2048 => scoreR (fun d => x0 (ix4 b h r d)) (fun d => x1 (ix4 b h s d)) := by
    funext k
    have e : hR.lift (ix3 b h r) k = ix4 b h r (⟨k.val, k.isLt⟩ : Fin 2048) := by
      funext c; apply Fin.ext
      fin_cases c <;> rfl
    show val_main_v37 (F := Ideal) x0 x1 (hR.lift (ix3 b h r) k) = _
    rw [e, v37_at]
    rfl
  exact congrArg (fun f => Finset.fold max (Ideal.ofBits .f32 0xFF800000#32) f (Finset.univ : Finset (Fin 2048))) hf

/-- The maximum against −∞ changes nothing. -/
theorem v40_at (x0 x1 : Arr) (b : Fin 4) (h : Fin 8) (r : Fin 2048) :
    val_main_v40 (F := Ideal) x0 x1 (ix3 b h r)
      = rowMax (fun s => scoreR (fun d => x0 (ix4 b h r d)) (fun d => x1 (ix4 b h s d))) := by
  rw [val_main_v40_apply, val_main_v39_apply, val_main_cst_10_apply, v38_at]
  simp only [Ideal.maximumf_def, Ideal.ofBits_def]
  generalize rowMax _ = m
  have hb : Ideal.ofBits .f32 0xFF800000#32 = (⊥ : EReal) := by simp [Ideal.ofBits, Ideal.ieee]
  rw [hb]
  exact max_eq_right bot_le

/-- The exponential of a score less its row's maximum. -/
theorem v44_at (x0 x1 : Arr) (b : Fin 4) (h : Fin 8) (r s : Fin 2048) :
    val_main_v44 (F := Ideal) x0 x1 (ix4 b h r s)
      = Ideal.exp (scoreR (fun d => x0 (ix4 b h r d)) (fun d => x1 (ix4 b h s d))
          - rowMax (fun s' => scoreR (fun d => x0 (ix4 b h r d)) (fun d => x1 (ix4 b h s' d)))) := by
  have e : idx_main_v41 (idx_main_v42 (ix4 b h r s)) = ix3 b h r :=
    funext fun a => Fin.ext (by match a with | ⟨0, _⟩ => rfl | ⟨1, _⟩ => rfl | ⟨2, _⟩ => rfl)
  rw [val_main_v44_apply, val_main_v43_apply, v37_at, val_main_v42_apply, val_main_v41_apply, e, v40_at]
  simp only [Ideal.hostUnary_exp_def, Ideal.subf_def]

/-- The sum of a row's exponentials. -/
theorem v45_at (x0 x1 : Arr) (b : Fin 4) (h : Fin 8) (r : Fin 2048) :
    val_main_v45 (F := Ideal) x0 x1 (ix3 b h r)
      = ∑ s : Fin 2048, Ideal.exp (scoreR (fun d => x0 (ix4 b h r d)) (fun d => x1 (ix4 b h s d))
          - rowMax (fun s' => scoreR (fun d => x0 (ix4 b h r d)) (fun d => x1 (ix4 b h s' d)))) := by
  rw [val_main_v45_apply]
  simp only [val_main_cst_11_apply, Ideal.ofBits_def, Ideal.ofBits_zero_f32, zero_add]
  refine Finset.sum_congr rfl fun k _ => ?_
  have e : idx_main_v45 (ix3 b h r) k = ix4 b h r k :=
    funext fun a => Fin.ext (by match a with | ⟨0, _⟩ => rfl | ⟨1, _⟩ => rfl | ⟨2, _⟩ => rfl | ⟨3, _⟩ => rfl)
  rw [e, v44_at]

/-- The second result: one weight of a row of scores. -/
theorem attn_apply (x0 x1 : FVec Ideal Cert.ReferenceIdeal.S4x8x2048x64 .f32) (b : Fin 4) (h : Fin 8) (r s : Fin 2048) :
    Cert.ReferenceIdeal.Read.val_main_v48 (F := Ideal) x0 x1 (ix4 b h r s)
      = soft (fun s' => scoreR (fun d => x0 (ix4 b h r d)) (fun d => x1 (ix4 b h s' d))) s := by
  have e : idx_main_v46 (idx_main_v47 (ix4 b h r s)) = ix3 b h r :=
    funext fun a => Fin.ext (by match a with | ⟨0, _⟩ => rfl | ⟨1, _⟩ => rfl | ⟨2, _⟩ => rfl)
  rw [val_main_v48_apply, v44_at, val_main_v47_apply, val_main_v46_apply, e, v45_at]
  simp only [Ideal.hostDivf_def]
  rfl

/-! ## The output -/

/-- The first result: the weights of a row against a column of the value array. -/
theorem out_apply (x0 x1 x2 : FVec Ideal Cert.ReferenceIdeal.S4x8x2048x64 .f32) (b : Fin 4) (h : Fin 8) (r : Fin 2048)
    (d : Fin 64) :
    Cert.ReferenceIdeal.Read.val_main_v49 (F := Ideal) x0 x1 x2 (ix4 b h r d)
      = mix (fun s => soft (fun s' => scoreR (fun d' => x0 (ix4 b h r d')) (fun d' => x1 (ix4 b h s' d'))) s)
          (fun s => x2 (ix4 b h s d)) := by
  rw [val_main_v49_apply]
  unfold mix
  refine Finset.sum_congr rfl fun k _ => ?_
  have el : lidx_main_v49 (ix4 b h r d) k = ix4 b h r k :=
    funext fun a => Fin.ext (by match a with | ⟨0, _⟩ => rfl | ⟨1, _⟩ => rfl | ⟨2, _⟩ => rfl | ⟨3, _⟩ => rfl)
  have er : ridx_main_v49 (ix4 b h r d) k = ix4 b h k d :=
    funext fun a => Fin.ext (by match a with | ⟨0, _⟩ => rfl | ⟨1, _⟩ => rfl | ⟨2, _⟩ => rfl | ⟨3, _⟩ => rfl)
  rw [el, er, attn_apply]

end Cert.RefRead

end
-- ==== Proof.ScoreLaw.lean ====
/-
  THE TWO FORMS OF THE SCORE AGREE. For rows `q`, `k` of real numbers with positive squared lengths `Q`, `K`:
  • each entry divided by its row's length is a real number, so the inner product `c` of the two normalised rows is
    real, and `c ≤ 1` by Cauchy–Schwarz (both normalised rows have squared length one);
  • the words: 0x40000000 is 2, 0x4000002A is 2 + 21/2097152, 0x3F800000 is 1, 0x3E000000 is 1/8, 0x3D800000 is 1/16,
    0x42800000 is 64, 0x3F000000 is 1/2, 0xC0000000 is −2, 0x40490FDB is p = 13176795/4194304 and 0x40C90FDB is 2p;
  • so `gap = (2 + 21/2097152) − 2c ≥ 21/2097152 > 0`: the clamp at zero is inactive and `√gap` is a real root;
  • `1/√64 = 1/8`, and `cos (2p·√gap) − 1 = −2 sin² (p·√gap)`, which turns the cosine form into the squared-sine form.
-/
import proofs.«114575_j82592221102308_2_alg».proof.Proof.Spec
import Mathlib.Analysis.SpecialFunctions.Trigonometric.Basic
import Mathlib.Algebra.Order.BigOperators.Ring.Finset
import Mathlib.Analysis.Real.Sqrt

noncomputable section

open scoped BigOperators

namespace Cert.PeriodicAttn

open Idealize.ShloMosaic

theorem w_two : Ideal.ofBits .f32 0x40000000#32 = ((2 : ℝ) : EReal) := by
  simp [Ideal.ofBits, Ideal.ieee, -EReal.coe_mul]; norm_num
theorem w_twoEps : Ideal.ofBits .f32 0x4000002A#32 = ((2 + 21 / 2097152 : ℝ) : EReal) := by
  rw [show (2 + 21 / 2097152 : ℝ) = 4194325 / 2097152 by norm_num]
  simp [Ideal.ofBits, Ideal.ieee, -EReal.coe_mul]; norm_num
theorem w_zero : Ideal.ofBits .f32 0x00000000#32 = ((0 : ℝ) : EReal) := by
  simp [Ideal.ofBits, Ideal.ieee]
theorem w_one : Ideal.ofBits .f32 0x3F800000#32 = ((1 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_sixteenth : Ideal.ofBits .f32 0x3D800000#32 = ((1 / 16 : ℝ) : EReal) := by
  simp [Ideal.ofBits, Ideal.ieee, -EReal.coe_mul]; norm_num
theorem w_sixtyFour : Ideal.ofBits .f32 0x42800000#32 = ((64 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_negTwo : Ideal.ofBits .f32 0xC0000000#32 = ((-2 : ℝ) : EReal) := by
  simp [Ideal.ofBits, Ideal.ieee, -EReal.coe_mul]; norm_num
theorem w_pi : Ideal.ofBits .f32 0x40490FDB#32 = ((13176795 / 4194304 : ℝ) : EReal) := by
  simp [Ideal.ofBits, Ideal.ieee, -EReal.coe_mul]; norm_num
theorem w_twoPi : Ideal.ofBits .f32 0x40C90FDB#32 = ((2 * (13176795 / 4194304) : ℝ) : EReal) := by
  simp [Ideal.ofBits, Ideal.ieee, -EReal.coe_mul]; norm_num

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared length of a row of reals is the real sum of squares. -/
theorem sq_coe (x : Fin 64 → ℝ) : sq (fun d => (x d : EReal)) = ((∑ d, x d * x d : ℝ) : EReal) := by
  unfold sq; rw [coe_sum]; simp only [EReal.coe_mul]

/-- The root of a nonnegative real. -/
theorem sqrt_coe_nonneg {r : ℝ} (h : 0 ≤ r) : Ideal.sqrt (r : EReal) = ((Real.sqrt r : ℝ) : EReal) := by
  rw [Ideal.sqrt_coe, if_neg (not_lt.mpr h)]

/-- An entry divided by the positive length of its row. -/
theorem div_sqrt_coe (a : ℝ) {Q : ℝ} (hQ : 0 < Q) :
    Ideal.div (a : EReal) (Ideal.sqrt (Q : EReal)) = ((a * (1 / Real.sqrt Q) : ℝ) : EReal) := by
  rw [sqrt_coe_nonneg hQ.le, Ideal.div_coe (Real.sqrt_pos.mpr hQ).ne', EReal.coe_mul]

/-- The inner product of the two normalised rows, as a real number. -/
def cosR (x y : Fin 64 → ℝ) : ℝ :=
  ∑ d, (x d * (1 / Real.sqrt (∑ d, x d * x d))) * (y d * (1 / Real.sqrt (∑ d, y d * y d)))

theorem cosSim_coe (x y : Fin 64 → ℝ) (hQ : 0 < ∑ d, x d * x d) (hK : 0 < ∑ d, y d * y d) :
    cosSim (fun d => (x d : EReal)) (fun d => (y d : EReal)) = ((cosR x y : ℝ) : EReal) := by
  unfold cosSim cosR
  rw [coe_sum, sq_coe, sq_coe]
  refine Finset.sum_congr rfl fun d _ => ?_
  rw [div_sqrt_coe (x d) hQ, div_sqrt_coe (y d) hK, ← EReal.coe_mul]

/-- A row of reals divided by its length has squared length one. -/
theorem sum_normalised_sq (x : Fin 64 → ℝ) (hQ : 0 < ∑ d, x d * x d) :
    ∑ d, (x d * (1 / Real.sqrt (∑ d, x d * x d))) ^ 2 = 1 := by
  have h1 : ∀ d, (x d * (1 / Real.sqrt (∑ d, x d * x d))) ^ 2 = (x d * x d) * (1 / (∑ d, x d * x d)) := fun d => by
    rw [mul_pow, div_pow, Real.sq_sqrt hQ.le]; ring
  simp only [h1]
  rw [← Finset.sum_mul, mul_one_div_cancel hQ.ne']

/-- Cauchy–Schwarz: the inner product of two unit rows is at most one. -/
theorem cosR_le_one (x y : Fin 64 → ℝ) (hQ : 0 < ∑ d, x d * x d) (hK : 0 < ∑ d, y d * y d) : cosR x y ≤ 1 := by
  have h := Finset.sum_mul_sq_le_sq_mul_sq Finset.univ (fun d => x d * (1 / Real.sqrt (∑ d, x d * x d)))
    (fun d => y d * (1 / Real.sqrt (∑ d, y d * y d)))
  rw [sum_normalised_sq x hQ, sum_normalised_sq y hK, one_mul] at h
  have : cosR x y ^ 2 ≤ 1 := h
  nlinarith [sq_nonneg (cosR x y - 1)]

/-- The argument of the square root, as a real number. -/
def gapR (x y : Fin 64 → ℝ) : ℝ := (2 + 21 / 2097152) - 2 * cosR x y

theorem gap_coe (x y : Fin 64 → ℝ) (hQ : 0 < ∑ d, x d * x d) (hK : 0 < ∑ d, y d * y d) :
    gap (fun d => (x d : EReal)) (fun d => (y d : EReal)) = ((gapR x y : ℝ) : EReal) := by
  unfold gap gapR
  rw [cosSim_coe x y hQ hK, w_twoEps, w_two, ← EReal.coe_mul, ← EReal.coe_sub]

/-- Since the inner product of unit rows is at most one, the argument of the root is positive. -/
theorem gapR_pos (x y : Fin 64 → ℝ) (hQ : 0 < ∑ d, x d * x d) (hK : 0 < ∑ d, y d * y d) : 0 < gapR x y := by
  have := cosR_le_one x y hQ hK
  unfold gapR
  linarith

/-- `1 / √64 = 1 / 8`. -/
theorem invRoot_eq : invRoot = ((1 / 8 : ℝ) : EReal) := by
  have h8 : Real.sqrt 64 = 8 := by
    rw [show (64 : ℝ) = 8 ^ 2 by norm_num, Real.sqrt_sq (by norm_num)]
  unfold invRoot
  rw [w_one, w_sixtyFour, sqrt_coe_nonneg (by norm_num), h8, Ideal.div_coe (by norm_num), ← EReal.coe_mul, one_mul]

/-- The cosine form on real rows. -/
theorem scoreK_coe (x y : Fin 64 → ℝ) (hQ : 0 < ∑ d, x d * x d) (hK : 0 < ∑ d, y d * y d) :
    scoreK (fun d => (x d : EReal)) (fun d => (y d : EReal))
      = (((Real.cos (2 * (13176795 / 4194304) * Real.sqrt (gapR x y)) - 1) * (1 / 8)
          + ((∑ d, x d * x d) + (∑ d, y d * y d)) * (1 / 16) : ℝ) : EReal) := by
  have hg := gapR_pos x y hQ hK
  unfold scoreK
  rw [gap_coe x y hQ hK, sq_coe, sq_coe, w_twoPi, w_zero, w_one, w_eighth, w_sixteenth,
    max_eq_left (EReal.coe_le_coe_iff.mpr hg.le), sqrt_coe_nonneg hg.le, ← EReal.coe_mul, Ideal.cos_coe]
  simp only [EReal.coe_mul, EReal.coe_add, EReal.coe_sub]

/-- The sine of the second form on real rows. -/
theorem halfSin_coe (x y : Fin 64 → ℝ) (hQ : 0 < ∑ d, x d * x d) (hK : 0 < ∑ d, y d * y d) :
    halfSin (fun d => (x d : EReal)) (fun d => (y d : EReal))
      = ((Real.sin (13176795 / 4194304 * Real.sqrt (gapR x y) * (1 / 1)) : ℝ) : EReal) := by
  have hg := gapR_pos x y hQ hK
  unfold halfSin
  rw [gap_coe x y hQ hK, sqrt_coe_nonneg hg.le, w_pi, w_one, ← EReal.coe_mul, Ideal.div_coe one_ne_zero,
    ← EReal.coe_mul, Ideal.sin_coe]

/-- The squared-sine form on real rows. -/
theorem scoreR_coe (x y : Fin 64 → ℝ) (hQ : 0 < ∑ d, x d * x d) (hK : 0 < ∑ d, y d * y d) :
    scoreR (fun d => (x d : EReal)) (fun d => (y d : EReal))
      = (((-2) * (Real.sin (13176795 / 4194304 * Real.sqrt (gapR x y) * (1 / 1))
            * Real.sin (13176795 / 4194304 * Real.sqrt (gapR x y) * (1 / 1))) * (1 / 8)
          + ((∑ d, x d * x d) + (∑ d, y d * y d)) * ((1 / 2) * (1 / 8)) : ℝ) : EReal) := by
  unfold scoreR
  rw [halfSin_coe x y hQ hK, invRoot_eq, sq_coe, sq_coe, w_negTwo, w_half]
  simp only [EReal.coe_mul, EReal.coe_add]

/-- `cos 2t − 1 = −2 sin² t`, in the shape of the two forms. -/
theorem score_identity (p s A : ℝ) :
    (Real.cos (2 * p * s) - 1) * (1 / 8) + A * (1 / 16)
      = (-2) * (Real.sin (p * s * (1 / 1)) * Real.sin (p * s * (1 / 1))) * (1 / 8) + A * ((1 / 2) * (1 / 8)) := by
  rw [show 2 * p * s = 2 * (p * s * (1 / 1)) by ring, Real.cos_two_mul, Real.cos_sq']
  ring

/-- THE TWO FORMS AGREE on rows of real numbers that are not all zero. -/
theorem scoreK_eq_scoreR (q k : Fin 64 → EReal) (hq : ∀ d, ∃ r : ℝ, q d = (r : EReal))
    (hk : ∀ d, ∃ r : ℝ, k d = (r : EReal)) (hqs : (0 : EReal) < sq q) (hks : (0 : EReal) < sq k) :
    scoreK q k = scoreR q k := by
  choose x hx using hq
  choose y hy using hk
  obtain rfl : q = fun d => (x d : EReal) := funext hx
  obtain rfl : k = fun d => (y d : EReal) := funext hy
  rw [sq_coe] at hqs hks
  have hQ := EReal.coe_pos.mp hqs
  have hK := EReal.coe_pos.mp hks
  rw [scoreK_coe x y hQ hK, scoreR_coe x y hQ hK, score_identity]

end Cert.PeriodicAttn

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.PreOpen.lean ====
/-
  THE PRECONDITION, OPENED. The precondition of the claim is the conjunction of five statements about the three argument
  arrays (shape [4, 8, 2048, 64]): every entry of each array is below +∞ in absolute value, and for the first two arrays
  the sum of the squares along the last axis is above zero at every row. Read at the extended reals this says:
  • `real0`, `real1`: every entry of the first two arrays is a real number;
  • `pos0`, `pos1`: every row (b, h, s) of the first two arrays has a positive squared length `∑ d, x d * x d`.
  The row sum over the last axis at row (b, h, s) ranges over the indices (b, h, s, d), d < 64.
-/
import proofs.«114575_j82592221102308_2_alg».proof.Pre_finite_inputs
import proofs.«114575_j82592221102308_2_alg».proof.Proof.Gen.Pre_finite_inputs
import proofs.«114575_j82592221102308_2_alg».proof.Proof.LibFiniteReal
import proofs.«114575_j82592221102308_2_alg».proof.Proof.Spec
import Idealize.ShloMosaic.Lib.ReduceAll
import Idealize.ShloMosaic.Lib.ValueIdx

noncomputable section

open scoped BigOperators

namespace Cert.PreOpen

open Idealize.ShloMosaic Idealize.ShloMosaic.ValueIdx Cert.Pre_finite_inputs

instance : Subsingleton S_.Idx := ⟨fun a b => funext fun d => d.elim0⟩

/-- A row sum that compares above the zero word is a positive squared length. -/
theorem rowsum_pos [Facts] (x : FVec Ideal S4x8x2048x64 .f32)
    (p : Host.reduce IntOp.andi
      (cmpf .ogt (Host.reduceAdd (mulf x x) (constant S_ .f32 0x00000000#32) Facts.reducesTo_S4x8x2048x64_S4x8x2048_d3 Facts.h_S_)
        (broadcastInDim S4x8x2048 ![] Facts.bcast_S_S4x8x2048 (constant S_ .f32 0x00000000#32)))
      (constantI S_ 1 1#1) Facts.reducesTo_S4x8x2048_S_d0_1_2 Facts.h_S_ ix0 = 1#1)
    (b : Fin 4) (hh : Fin 8) (s : Fin 2048) :
    (0 : EReal) < Cert.PeriodicAttn.sq (fun d => x (ix4 b hh s d)) := by
  have hi := Host.reduce_andi_all _ _ _ _ _ p (ix3 b hh s)
  have hR : Shape.Reduces S4x8x2048x64 [3] S4x8x2048 := by decide
  have e : cmpf .ogt (Host.reduceAdd (mulf x x) (constant S_ .f32 0x00000000#32) Facts.reducesTo_S4x8x2048x64_S4x8x2048_d3 Facts.h_S_)
        (broadcastInDim S4x8x2048 ![] Facts.bcast_S_S4x8x2048 (constant S_ .f32 0x00000000#32)) (ix3 b hh s)
      = Ideal.cmp .ogt (Ideal.hostReduceAdd Facts.reducesTo_S4x8x2048x64_S4x8x2048_d3 (mulf x x) (Ideal.ofBits .f32 0x00000000#32) (ix3 b hh s))
          (Ideal.ofBits .f32 0x00000000#32) := rfl
  rw [e, Ideal.hostReduceAdd_single _ hR, Ideal.ofBits_zero_f32, zero_add] at hi
  have hl : ∀ k : Fin 64, hR.lift (ix3 b hh s) k = ix4 b hh s k := fun k => by
    funext c; refine Fin.ext ?_
    match c with
    | ⟨0, _⟩ => rfl
    | ⟨1, _⟩ => rfl
    | ⟨2, _⟩ => rfl
    | ⟨3, _⟩ => rfl
  have hs : (∑ k : Fin (S4x8x2048x64.size 3), mulf x x (hR.lift (ix3 b hh s) k))
      = Cert.PeriodicAttn.sq fun d => x (ix4 b hh s d) := by
    unfold Cert.PeriodicAttn.sq
    exact Finset.sum_congr rfl fun k _ => by rw [hl k]; rfl
  rw [hs] at hi
  by_contra hn
  simp [Ideal.cmp, hn] at hi

variable [Facts] (a0 a1 a2 : FVec Ideal S4x8x2048x64 .f32) (h : fn (F := Ideal) a0 a1 a2 = (fun _ => 1#1))

include h in
/-- The precondition is the conjunction of its five reductions. -/
theorem parts :
    (Host.reduce IntOp.andi
      (cmpf .olt (Host.absf a0) (broadcastInDim S4x8x2048x64 ![] Facts.bcast_S_S4x8x2048x64 (constant S_ .f32 0x7F800000#32)))
      (constantI S_ 1 1#1) Facts.reducesTo_S4x8x2048x64_S_d0_1_2_3 Facts.h_S_ ix0 = 1#1) ∧
    (Host.reduce IntOp.andi
      (cmpf .olt (Host.absf a1) (broadcastInDim S4x8x2048x64 ![] Facts.bcast_S_S4x8x2048x64 (constant S_ .f32 0x7F800000#32)))
      (constantI S_ 1 1#1) Facts.reducesTo_S4x8x2048x64_S_d0_1_2_3 Facts.h_S_ ix0 = 1#1) ∧
    (Host.reduce IntOp.andi
      (cmpf .ogt (Host.reduceAdd (mulf a0 a0) (constant S_ .f32 0x00000000#32) Facts.reducesTo_S4x8x2048x64_S4x8x2048_d3 Facts.h_S_)
        (broadcastInDim S4x8x2048 ![] Facts.bcast_S_S4x8x2048 (constant S_ .f32 0x00000000#32)))
      (constantI S_ 1 1#1) Facts.reducesTo_S4x8x2048_S_d0_1_2 Facts.h_S_ ix0 = 1#1) ∧
    (Host.reduce IntOp.andi
      (cmpf .ogt (Host.reduceAdd (mulf a1 a1) (constant S_ .f32 0x00000000#32) Facts.reducesTo_S4x8x2048x64_S4x8x2048_d3 Facts.h_S_)
        (broadcastInDim S4x8x2048 ![] Facts.bcast_S_S4x8x2048 (constant S_ .f32 0x00000000#32)))
      (constantI S_ 1 1#1) Facts.reducesTo_S4x8x2048_S_d0_1_2 Facts.h_S_ ix0 = 1#1) := by
  have h0 := congrFun h ix0
  dsimp only [fn, fn_part1] at h0
  simp only [andi, IntOp.andi_eq_one] at h0
  obtain ⟨⟨⟨⟨e0, e1⟩, _⟩, p0⟩, p1⟩ := h0
  exact ⟨e0, e1, p0, p1⟩

include h in
/-- Every entry of the first argument is a real number. -/
theorem real0 : ∀ i, ∃ r : ℝ, a0 i = (r : EReal) :=
  FiniteReal.forall_real_of_all_abs_lt_inf a0 _ _ _ _ _ ix0 (parts a0 a1 a2 h).1

include h in
/-- Every entry of the second argument is a real number. -/
theorem real1 : ∀ i, ∃ r : ℝ, a1 i = (r : EReal) :=
  FiniteReal.forall_real_of_all_abs_lt_inf a1 _ _ _ _ _ ix0 (parts a0 a1 a2 h).2.1

include h in
/-- Every row of the first argument has positive squared length. -/
theorem pos0 (b : Fin 4) (hh : Fin 8) (s : Fin 2048) :
    (0 : EReal) < Cert.PeriodicAttn.sq (fun d => a0 (ix4 b hh s d)) :=
  rowsum_pos a0 (parts a0 a1 a2 h).2.2.1 b hh s

include h in
/-- Every row of the second argument has positive squared length. -/
theorem pos1 (b : Fin 4) (hh : Fin 8) (s : Fin 2048) :
    (0 : EReal) < Cert.PeriodicAttn.sq (fun d => a1 (ix4 b hh s d)) :=
  rowsum_pos a1 (parts a0 a1 a2 h).2.2.2 b hh s

end Cert.PreOpen

end
-- ==== Proof.lean ====
/-
  THE CLAIM: the kernel program and the reference program compute the same two arrays on the extended reals.
  For query, key and value arrays of shape [4, 8, 2048, 64] whose entries are finite and whose query and key rows are
  not all zero, both programs return, at batch `b`, head `h` and query row `q`,
    • the weights `soft S` of the row of scores `S s' = score (query row q) (key row s')`, and
    • the weighted sums `mix (soft S) (value column d)` of the value rows.
  The kernel computes the score in its cosine form `scoreK`, the reference in its squared-sine form `scoreR`; on rows of
  real numbers with positive squared length the two forms are equal (the inner product of the normalised rows is at most
  one, so the argument of the square root is positive and its clamp at zero is inactive, and `cos 2x − 1 = −2 sin² x`).
  The precondition gives exactly that: every entry is a real number and every row has a positive squared length. Hence
  the two score rows are equal entry by entry, and so are their weights and weighted sums. Each program also runs to the
  end on every weakly fair execution and leaves its three arguments unchanged.
-/
import proofs.«114575_j82592221102308_2_alg».proof.Defs
import proofs.«114575_j82592221102308_2_alg».proof.Proof.Gen.Kernel
import proofs.«114575_j82592221102308_2_alg».proof.Proof.Gen.Kernel.Skeleton
import proofs.«114575_j82592221102308_2_alg».proof.Proof.Gen.Kernel.Launch
import proofs.«114575_j82592221102308_2_alg».proof.Proof.Gen.Kernel.Points
import proofs.«114575_j82592221102308_2_alg».proof.Proof.Gen.Kernel.Frame
import proofs.«114575_j82592221102308_2_alg».proof.Proof.Gen.KernelIdeal
import proofs.«114575_j82592221102308_2_alg».proof.Proof.Gen.KernelIdeal.Skeleton
import proofs.«114575_j82592221102308_2_alg».proof.Proof.Gen.KernelIdeal.Launch
import proofs.«114575_j82592221102308_2_alg».proof.Proof.Gen.KernelIdeal.Points
import proofs.«114575_j82592221102308_2_alg».proof.Proof.Gen.KernelIdeal.Frame
import proofs.«114575_j82592221102308_2_alg».proof.Proof.Gen.ReferenceIdeal
import proofs.«114575_j82592221102308_2_alg».proof.Proof.Gen.ReferenceIdeal.Run
import proofs.«114575_j82592221102308_2_alg».proof.Proof.Gen.ReferenceIdeal.Read
import proofs.«114575_j82592221102308_2_alg».proof.Proof.Gen.Pre_finite_inputs
import proofs.«114575_j82592221102308_2_alg».proof.Proof.KernelRun
import proofs.«114575_j82592221102308_2_alg».proof.Proof.RefRead
import proofs.«114575_j82592221102308_2_alg».proof.Proof.ScoreLaw
import proofs.«114575_j82592221102308_2_alg».proof.Proof.PreOpen
import Idealize.ShloMosaic.Adequacy
import Idealize.ShloMosaic.Init

noncomputable section

namespace Cert.Proof

open Idealize.ShloMosaic Idealize.SL.Sem Idealize.ShloMosaic.ValueIdx Cert.PeriodicAttn

/-! ## The two score forms agree under the precondition -/

/-- On arrays of which the precondition holds, the cosine form and the squared-sine form of the score agree at every
    pair of a query row and a key row of the same batch and head: the rows are real and not all zero. -/
theorem score_eq (a0 a1 a2 : FVec Ideal Cert.Pre_finite_inputs.S4x8x2048x64 .f32)
    (h : Cert.Pre_finite_inputs.fn (F := Ideal) a0 a1 a2 = (fun _ => 1#1)) (b : Fin 4) (hh : Fin 8) (q s' : Fin 2048) :
    scoreK (fun d => a0 (ix4 b hh q d)) (fun d => a1 (ix4 b hh s' d))
      = scoreR (fun d => a0 (ix4 b hh q d)) (fun d => a1 (ix4 b hh s' d)) :=
  scoreK_eq_scoreR _ _ (fun _ => Cert.PreOpen.real0 a0 a1 a2 h _) (fun _ => Cert.PreOpen.real1 a0 a1 a2 h _)
    (Cert.PreOpen.pos0 a0 a1 a2 h b hh q) (Cert.PreOpen.pos1 a0 a1 a2 h b hh s')

/-- So the weights the kernel leaves at a row are the weights of the squared-sine scores. -/
theorem attnRow_eq (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 4) (hh : Fin 8) (q : Fin 2048) :
    Cert.KernelRun.attnRow m c b hh q
      = soft (fun s' => scoreR (fun d => m ((c.tc : Thread Cert.KernelIdeal.nD Cert.KernelIdeal.τ).loc Cert.KernelIdeal.main_arg0) (ix4 b hh q d))
          (fun d => m ((c.tc : Thread Cert.KernelIdeal.nD Cert.KernelIdeal.τ).loc Cert.KernelIdeal.main_arg1) (ix4 b hh s' d))) := by
  unfold Cert.KernelRun.attnRow
  exact congrArg soft (funext fun s' => score_eq _ _ _ (hpre c) b hh q s')

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two functions of the launch contents of the arguments: the kernel because
    its weights and weighted sums, read index by index, are those of the squared-sine scores (`attnRow_eq`), the
    reference by its own run from arguments that agree with the kernel's. -/
theorem algebraic : Cert.algebraic_KernelIdeal_ReferenceIdeal := by
  intro m ρ m' ρ' hpre hagree
  refine ⟨fun c => Cert.ReferenceIdeal.Read.val_main_v49 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v48 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun r h c => ⟨?_, ?_, (h c).2.2.1, (h c).2.2.2.1, (h c).2.2.2.2⟩) (Cert.KernelRun.run m ρ)
    · funext i
      obtain ⟨b, hh, q, d, rfl⟩ : ∃ b hh q d, i = ix4 b hh q d := ⟨i 0, i 1, i 2, i 3, eq_ix4 i⟩
      refine ((h c).1 b hh q d).trans ?_
      rw [attnRow_eq m hpre c b hh q]
      exact (Cert.RefRead.out_apply _ _ _ b hh q d).symm
    · funext i
      obtain ⟨b, hh, q, s, rfl⟩ : ∃ b hh q s, i = ix4 b hh q s := ⟨i 0, i 1, i 2, i 3, eq_ix4 i⟩
      refine ((h c).2.1 b hh q s).trans ?_
      rw [attnRow_eq m hpre c b hh q]
      exact (Cert.RefRead.attn_apply _ _ b hh q s).symm
  · refine (θ_run Cert.ReferenceIdeal.defs _ _).mono
      (fun r h c => ⟨?_, ?_, (h c).2.2.1, (h c).2.2.2.1, (h c).2.2.2.2⟩) (Cert.ReferenceIdeal.Value.run (F := Ideal) m' ρ')
    · rw [(h c).1, Cert.ReferenceIdeal.Read.val_main_v49_eq, (hagree c).1, (hagree c).2.1, (hagree c).2.2]
    · rw [(h c).2.1, Cert.ReferenceIdeal.Read.val_main_v48_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
